-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x269 : Shape := ⟨2, ![100000, 269]⟩
abbrev S2x1600000 : Shape := ⟨2, ![2, 1600000]⟩
abbrev S1600000 : Shape := ⟨1, ![1600000]⟩
abbrev S269x64 : Shape := ⟨2, ![269, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x269 : S_.BroadcastsInDim S100000x269 (![] : Fin 0 → Fin S100000x269.rank)
  reducesTo_S100000x269_S_d0_1 : S100000x269.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S269x64 : S_.BroadcastsInDim S269x64 (![] : Fin 0 → Fin S269x64.rank)
  reducesTo_S269x64_S_d0_1 : S269x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x32 .f32) (main_arg6 : FVec F S32 .f32) (main_arg7 : FVec F S32x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_v33

def fn {F : FTy → Type} [FloatOps F] (main_arg0 : FVec F S100000x269 .f32) (main_arg1 : IVec S2x1600000 32) (main_arg2 : FVec F S1600000 .f32) (main_arg3 : FVec F S269x64 .f32) (main_arg4 : FVec F S64 .f32) (main_arg5 : FVec F S64x32 .f32) (main_arg6 : FVec F S32 .f32) (main_arg7 : FVec F S32x1 .f32) (main_arg8 : FVec F S1 .f32) : IVec S_ 1 :=
  let main_v0 : FVec F S100000x269 .f32 := Host.absf main_arg0
  let main_cst : FVec F S_ .f32 := constant S_ .f32 0x7F800000#32
  let main_v1 : FVec F S100000x269 .f32 := broadcastInDim S100000x269 ![] bcast_S_S100000x269 main_cst
  let main_v2 : IVec S100000x269 1 := cmpf .olt main_v0 main_v1
  let main_c : IVec S_ 1 := constantI S_ 1 1#1
  let main_v3 : IVec S_ 1 := (fun x v => Host.reduce IntOp.andi x v reducesTo_S100000x269_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S269x64 .f32 := Host.absf main_arg3
  let main_cst_2 : FVec F S_ .f32 := constant S_ .f32 0x7F800000#32
  let main_v10 : FVec F S269x64 .f32 := broadcastInDim S269x64 ![] bcast_S_S269x64 main_cst_2
  let main_v11 : IVec S269x64 1 := cmpf .olt main_v9 main_v10
  let main_c_3 : IVec S_ 1 := constantI S_ 1 1#1
  let main_v12 : IVec S_ 1 := (fun x v => Host.reduce IntOp.andi x v reducesTo_S269x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x269 : Shape := ⟨2, ![100000, 269]⟩
abbrev S2x1600000 : Shape := ⟨2, ![2, 1600000]⟩
abbrev S1600000 : Shape := ⟨1, ![1600000]⟩
abbrev S269x64 : Shape := ⟨2, ![269, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x269 : Shape := ⟨2, ![5000, 269]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 107
  | .vmem => 30
  | .smem => 0
  | _ => 0

abbrev bufTy : (tb : Table) → Fin (tcTables nBuf tb) → BufTy
  | .hbm, ⟨0, _⟩ => ⟨S100000x269, .f32⟩
  | .hbm, ⟨1, _⟩ => ⟨S2x1600000, .i32⟩
  | .hbm, ⟨2, _⟩ => ⟨S1600000, .f32⟩
  | .hbm, ⟨3, _⟩ => ⟨S269x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x32, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x32, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x1, .f32⟩
  | .hbm, ⟨89, _⟩ => ⟨S1700000x1, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x1, .f32⟩
  | .hbm, ⟨99, _⟩ => ⟨S1700000x1, .f32⟩
  | .hbm, ⟨100, _⟩ => ⟨S_, .f32⟩
  | .hbm, ⟨101, _⟩ => ⟨S100000x1, .f32⟩
  | .hbm, ⟨102, _⟩ => ⟨S1700000x1, .i32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000, .f32⟩
  | .local _ .vmem, ⟨0, _⟩ => ⟨S5000x269, .f32⟩
  | .local _ .vmem, ⟨1, _⟩ => ⟨S5000x269, .f32⟩
  | .local _ .vmem, ⟨2, _⟩ => ⟨S269x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x1, .f32⟩
  | .local _ .vmem, ⟨23, _⟩ => ⟨S5000x1, .f32⟩
  | .local _ .vmem, ⟨24, _⟩ => ⟨S5000x1, .f32⟩
  | .local _ .vmem, ⟨25, _⟩ => ⟨S5000x1, .f32⟩
  | .local _ .vmem, ⟨26, _⟩ => ⟨S5000x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x269, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_c_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x269 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S269x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x269_S5000x269_0_0 : ∀ a, (![0, 0] : Fin 2 → Nat) a + S5000x269.size a ≤ S5000x269.size a
  h_S5000x269 : 0 < S5000x269.numel
  bitsLt_bf16_f32 : FTy.bits .bf16 < FTy.bits .f32
  inb_S269x64_S269x64_0_0 : ∀ a, (![0, 0] : Fin 2 → Nat) a + S269x64.size a ≤ S269x64.size a
  h_S269x64 : 0 < S269x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x269_S269x64_S5000x64_1_0_0_1_n_n_wf : DotDims.WF S5000x269 S269x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x1_S5000x1_1_0_0_1_n_n_wf : DotDims.WF S5000x32 S32x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x269.size a ≤ S100000x269.size a
  hwx0_0 : ∀ i : grid0.Coords, EltTy.bits .f32 = 32 ∨ (Rect.block (s := S100000x269) S5000x269.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S269x64.size a ≤ S269x64.size a
  hwx0_1 : ∀ i : grid0.Coords, EltTy.bits .f32 = 32 ∨ (Rect.block (s := S269x64) S269x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x269_S269x64_S5000x64_1_0_0_1_n_n : DotDims S5000x269 S269x64 S5000x64 where
  lhsContracting := [1]
  rhsContracting := [0]
  lhsNonContracting := [0]
  rhsNonContracting := [1]
  lhsBatch := []
  rhsBatch := []
  wf := dot_S5000x269_S269x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x269.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S269x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x269 : Shape := ⟨2, ![100000, 269]⟩
abbrev S2x1600000 : Shape := ⟨2, ![2, 1600000]⟩
abbrev S1600000 : Shape := ⟨1, ![1600000]⟩
abbrev S269x64 : Shape := ⟨2, ![269, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 190
  | .vmem => 0
  | .smem => 0
  | _ => 0

abbrev hbmTy0_0 (i : Nat) : BufTy := match i % 128 with
  | 0 => ⟨S100000x269, .f32⟩
  | 1 => ⟨S2x1600000, .i32⟩
  | 2 => ⟨S1600000, .f32⟩
  | 3 => ⟨S269x64, .f32⟩
  | 4 => ⟨S64, .f32⟩
  | 5 => ⟨S64x32, .f32⟩
  | 6 => ⟨S32, .f32⟩
  | 7 => ⟨S32x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x32, .f32⟩
  | 74 => ⟨S100000, .i32⟩
  | 75 => ⟨S1700000, .i32⟩
  | 76 => ⟨S1700000, .i32⟩
  | 77 => ⟨S_, .f32⟩
  | 78 => ⟨S100000, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x32, .f32⟩
  | 121 => ⟨S1700000x32, .f32⟩
  | 122 => ⟨S1700000x32, .f32⟩
  | 123 => ⟨S_, .f32⟩
  | 124 => ⟨S100000x32, .f32⟩
  | 125 => ⟨S1700000x1, .i32⟩
  | 126 => ⟨S100000x32, .f32⟩
  | 127 => ⟨S1x32, .f32⟩
  | _ => ⟨S100000x269, .f32⟩

abbrev hbmTy0_1 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x1, .f32⟩
  | 6 => ⟨S100000, .i32⟩
  | 7 => ⟨S1700000, .i32⟩
  | 8 => ⟨S1700000, .i32⟩
  | 9 => ⟨S_, .f32⟩
  | 10 => ⟨S100000, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S1700000x1, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x1, .f32⟩
  | 53 => ⟨S1700000x1, .f32⟩
  | 54 => ⟨S_, .f32⟩
  | 55 => ⟨S100000x1, .f32⟩
  | 56 => ⟨S1700000x1, .i32⟩
  | 57 => ⟨S100000x1, .f32⟩
  | 58 => ⟨S1x1, .f32⟩
  | 59 => ⟨S100000x1, .f32⟩
  | 60 => ⟨S100000x1, .f32⟩
  | 61 => ⟨S100000, .f32⟩
  | _ => ⟨S100000x269, .f32⟩

abbrev hbmTy (i : Nat) : BufTy := match i / 128 with
  | 0 => hbmTy0_0 i
  | 1 => hbmTy0_1 i
  | _ => ⟨S100000x269, .f32⟩

abbrev bufTy : (tb : Table) → Fin (tcTables nBuf tb) → BufTy
  | .hbm, ⟨i, _⟩ => hbmTy i
  | _, _ => ⟨S100000x269, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call3_cst : Ref sig .tc := ⟨.hbm, 130, rfl⟩
abbrev main_call3_v0 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_v103 : Ref sig .tc := ⟨.hbm, 139, rfl⟩
abbrev main_cst_21 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_23 : Ref sig .tc := ⟨.hbm, 148, rfl⟩
abbrev main_v110 : Ref sig .tc := ⟨.hbm, 149, rfl⟩
abbrev main_v111 : Ref sig .tc := ⟨.hbm, 150, rfl⟩
abbrev main_c_24 : Ref sig .tc := ⟨.hbm, 151, rfl⟩
abbrev main_v112 : Ref sig .tc := ⟨.hbm, 152, rfl⟩
abbrev main_v113 : Ref sig .tc := ⟨.hbm, 153, rfl⟩
abbrev main_c_25 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_26 : Ref sig .tc := ⟨.hbm, 161, rfl⟩
abbrev main_v120 : Ref sig .tc := ⟨.hbm, 162, rfl⟩
abbrev main_v121 : Ref sig .tc := ⟨.hbm, 163, rfl⟩
abbrev main_c_27 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_28 : Ref sig .tc := ⟨.hbm, 172, rfl⟩
abbrev main_v129 : Ref sig .tc := ⟨.hbm, 173, rfl⟩
abbrev main_v130 : Ref sig .tc := ⟨.hbm, 174, rfl⟩
abbrev main_c_29 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_30 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x269_S269x64_S100000x64_1_0_0_1_n_n_wf : DotDims.WF S100000x269 S269x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x269_S269x64_S100000x64_1_0_0_1_n_n : DotDims S100000x269 S269x64 S100000x64 where
  lhsContracting := [1]
  rhsContracting := [0]
  lhsNonContracting := [0]
  rhsNonContracting := [1]
  lhsBatch := []
  rhsBatch := []
  wf := dot_S100000x269_S269x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.Carry.lean ====
/-
  Which buffers a segment of the idealized kernel program leaves alone. A stretch of host operations writes exactly
  the buffers its operations name, one each; a pipelined region changes only its windows' arrays. So a buffer that is
  none of those holds after the segment what it held before — the three arrays the graph structure is computed into
  once (source indices, destination indices, edge normalisation) and the nine arguments are carried this way from
  where they are made to each of the three layers that read them.
-/
import proofs.«106816_j7524782702918_1_alg».proof.Proof.Gen.KernelIdeal.Frame
import proofs.«106816_j7524782702918_1_alg».proof.Proof.LibLine

set_option maxRecDepth 16384

noncomputable section

namespace Cert.KernelIdeal.Carry

open Cert.KernelIdeal Cert.KernelIdeal.Gen Cert.LibLine
open Idealize.ShloMosaic Idealize.ShloMosaic.TcCoe Idealize.ShloMosaic.StableHlo Idealize.SL.Sem

variable {F : FTy → Type} [FloatOps F]

/-- The buffers the stretches write, operation by operation. -/
abbrev outs0 : List (Ref sig .tc) := [main_v0, main_v1, main_v2, main_v3, main_v4, main_v5, main_v6, main_cst, main_v7, main_v8, main_cst_0, main_v9, main_v10, main_v11, main_cst_1, main_v12, main_v13, main_v14, main_cst_2, main_v15]
abbrev outs0_1 : List (Ref sig .tc) := [main_v16]
abbrev outs0_2 : List (Ref sig .tc) := [main_c, main_v17, main_v18, main_c_3, main_v19, main_v20, main_v21, main_v22, main_v23, main_v24, main_c_4, main_v25, main_v26, main_c_5, main_v27, main_v28, main_v29, main_v30, main_v31, main_v32]
abbrev outs1 : List (Ref sig .tc) := [main_v34, main_c_6, main_v35, main_v36, main_c_7, main_v37, main_v38, main_v39, main_v40, main_v41, main_v42, main_v43, main_cst_8, main_v44, main_v45, main_v46, main_v47]
abbrev outs3 : List (Ref sig .tc) := [main_v50, main_c_9, main_v51, main_v52, main_c_10, main_v53, main_v54, main_v55, main_v56, main_v57, main_v58, main_v59, main_cst_11, main_v60, main_v61, main_v62, main_v63]

theorem writes0 : WritesAre (hostOps0 (F := F)) outs0 := by
  repeat' first | exact List.Forall₂.nil | refine List.Forall₂.cons rfl ?_
theorem writes0_1 : WritesAre (hostOps0_1 (F := F)) outs0_1 := by
  repeat' first | exact List.Forall₂.nil | refine List.Forall₂.cons rfl ?_
theorem writes0_2 : WritesAre (hostOps0_2 (F := F)) outs0_2 := by
  repeat' first | exact List.Forall₂.nil | refine List.Forall₂.cons rfl ?_
theorem writes1 : WritesAre (hostOps1 (F := F)) outs1 := by
  repeat' first | exact List.Forall₂.nil | refine List.Forall₂.cons rfl ?_
theorem writes3 : WritesAre (hostOps3 (F := F)) outs3 := by
  repeat' first | exact List.Forall₂.nil | refine List.Forall₂.cons rfl ?_

variable (m : (ℓ : Loc nD τ sig) → Buf (Elt F) ℓ) (ρ : Dev nD → PrngReg) (c : Dev nD) (b : Ref sig .tc)

/-- Through the three stretches before the first region, back to the launch memory. -/
theorem up3 (h0 : b ∉ outs0) (h1 : b ∉ outs0_1) (h2 : b ∉ outs0_2) :
    W3 m ρ c (Proc.devRef .tc b) = m ((c : Thread nD τ).loc b) :=
  (after_of_writesAre writes0_2 _ h2).trans ((after_of_writesAre writes0_1 _ h1).trans (after_of_writesAre writes0 _ h0))

/-- Through the first region. -/
theorem up4 (h : ∀ w, Pipeline.arrRef spec0 w ≠ b) : W4 m ρ c (Proc.devRef .tc b) = W3 m ρ c (Proc.devRef .tc b) :=
  W4_of_ne m ρ c b h

/-- Through the stretch after the first region. -/
theorem up5 (h : b ∉ outs1) : W5 m ρ c (Proc.devRef .tc b) = W4 m ρ c (Proc.devRef .tc b) :=
  after_of_writesAre writes1 _ h

/-- Through that stretch and the second region. -/
theorem up6 (h : b ∉ outs1) (h1 : ∀ w, Pipeline.arrRef spec1 w ≠ b) :
    W6 m ρ c (Proc.devRef .tc b) = W4 m ρ c (Proc.devRef .tc b) :=
  (W6_of_ne m ρ c b h1).trans (up5 m ρ c b h)

/-- Through that stretch and the second and third regions. -/
theorem up7 (h : b ∉ outs1) (h1 : ∀ w, Pipeline.arrRef spec1 w ≠ b) (h2 : ∀ w, Pipeline.arrRef spec2 w ≠ b) :
    W7 m ρ c (Proc.devRef .tc b) = W4 m ρ c (Proc.devRef .tc b) :=
  (W7_of_ne m ρ c b h2).trans (up6 m ρ c b h h1)

/-- Through the stretch after the third region. -/
theorem up8 (h : b ∉ outs3) : W8 m ρ c (Proc.devRef .tc b) = W7 m ρ c (Proc.devRef .tc b) :=
  after_of_writesAre writes3 _ h

/-- Through that stretch and the fourth region. -/
theorem up9 (h : b ∉ outs3) (h3 : ∀ w, Pipeline.arrRef spec3 w ≠ b) :
    W9 m ρ c (Proc.devRef .tc b) = W7 m ρ c (Proc.devRef .tc b) :=
  (W9_of_ne m ρ c b h3).trans (up8 m ρ c b h)

/-- Through that stretch and the fourth and fifth regions. -/
theorem up10 (h : b ∉ outs3) (h3 : ∀ w, Pipeline.arrRef spec3 w ≠ b) (h4 : ∀ w, Pipeline.arrRef spec4 w ≠ b) :
    W10 m ρ c (Proc.devRef .tc b) = W7 m ρ c (Proc.devRef .tc b) :=
  (W10_of_ne m ρ c b h4).trans (up9 m ρ c b h h3)

end Cert.KernelIdeal.Carry

end
-- ==== Proof.LibLineTernary.lean ====
/- Two more stages for a straight line of host operations in single-assignment form (companions of the stages
   for constants, one- and two-operand operations and reshapes): a THREE-operand operation (a select, a scatter), and a
   two-operand operation of an inlined function, whose values are carried to and from its buffers along equations
   between types that are reflexivity for a literal buffer. In both, what the written buffer holds after the WHOLE line
   is the operation's function of what its operands hold after the whole line. -/
import proofs.«106816_j7524782702918_1_alg».proof.Proof.LibLine

namespace Cert.LibLine

open Idealize.ShloMosaic Idealize.ShloMosaic.TcCoe Idealize.ShloMosaic.StableHlo

/-- The stage of a three-operand operation: after the whole line its buffer holds the operation's function of what
    the three operands hold after the whole line. -/
theorem stage_ternary {τ : Topo} {sig : RefSig} {Val : EltTy → Type} {ops : List (HloOp τ sig Val)} {outs : List (Ref sig .tc)}
    (h : WritesAre ops outs) (k : Nat) (c a b y : Ref sig .tc)
    (f : c.ty.Contents Val → a.ty.Contents Val → b.ty.Contents Val → y.ty.Contents Val) {hc ha hb hy}
    (hk : ops[k]? = some (ternary c a b y f hc ha hb hy)) (hy' : y ∉ outs.drop (k + 1)) (hc' : c ∉ outs.drop k)
    (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

/-- The stage of a two-operand operation of an inlined function: its values are carried to and from the buffers along
    equations between types that are reflexivity, so its stage reads like any other two-operand operation's. -/
theorem stage_tbinary {τ : Topo} {sig : RefSig} {Val : EltTy → Type} {ops : List (HloOp τ sig Val)} {outs : List (Ref sig .tc)}
    (h : WritesAre ops outs) (k : Nat) (a b y : Ref sig .tc) {ha2 ha3 hb2 hb3 hy2 hy3}
    (f : a.ty.Contents Val → b.ty.Contents Val → y.ty.Contents Val)
    (hk : ops[k]? = some (TRef.binary (⟨a, rfl, ha2, ha3⟩ : TRef sig a.ty) (⟨b, rfl, hb2, hb3⟩ : TRef sig b.ty)
      (⟨y, rfl, hy2, hy3⟩ : TRef sig y.ty) f))
    (hy' : y ∉ outs.drop (k + 1)) (ha' : a ∉ outs.drop k) (hb' : b ∉ outs.drop k) (V : Valuation τ sig Val) :
    after ops V (Proc.devRef .tc y) = f (after ops V (Proc.devRef .tc a)) (after ops V (Proc.devRef .tc b)) :=
  stage_binary h k a b y f hk hy' ha' hb' V

end Cert.LibLine
-- ==== Proof.LibLineCall.lean ====
/- One more stage for a straight line of host operations in single-assignment form: a THREE-operand operation of an
   inlined function (a select called through jnp.where), whose values are carried to and from its buffers along
   equations between types that are reflexivity for a literal buffer. What the written buffer holds after the whole
   line is the operation's function of what its three operands hold after the whole line. General; no program is
   imported. -/
import proofs.«106816_j7524782702918_1_alg».proof.Proof.LibLineTernary

namespace Cert.LibLine

open Idealize.ShloMosaic Idealize.ShloMosaic.TcCoe Idealize.ShloMosaic.StableHlo

/-- The stage of a three-operand operation of an inlined function: its values are carried to and from the buffers along
    equations between types that are reflexivity, so its stage reads like any other three-operand operation's. -/
theorem stage_tternary {τ : Topo} {sig : RefSig} {Val : EltTy → Type} {ops : List (HloOp τ sig Val)} {outs : List (Ref sig .tc)}
    (h : WritesAre ops outs) (k : Nat) (c a b y : Ref sig .tc) {hc2 hc3 ha2 ha3 hb2 hb3 hy2 hy3}
    (f : c.ty.Contents Val → a.ty.Contents Val → b.ty.Contents Val → y.ty.Contents Val)
    (hk : ops[k]? = some (TRef.ternary (⟨c, rfl, hc2, hc3⟩ : TRef sig c.ty) (⟨a, rfl, ha2, ha3⟩ : TRef sig a.ty)
      (⟨b, rfl, hb2, hb3⟩ : TRef sig b.ty) (⟨y, rfl, hy2, hy3⟩ : TRef sig y.ty) f))
    (hy' : y ∉ outs.drop (k + 1)) (hc' : c ∉ outs.drop k) (ha' : a ∉ outs.drop k) (hb' : b ∉ outs.drop k)
    (V : Valuation τ sig Val) :
    after ops V (Proc.devRef .tc y)
      = f (after ops V (Proc.devRef .tc c)) (after ops V (Proc.devRef .tc a)) (after ops V (Proc.devRef .tc b)) :=
  stage_ternary h k c a b y f hk hy' hc' ha' hb' V

end Cert.LibLine
-- ==== Proof.Graph.lean ====
/-
  The graph structure, computed once by the kernel program before its first region, is what the reference computes
  (three times over, once per layer): the source and destination index vectors with one self-loop per node appended,
  and the per-edge normalisation d(src)^(-1/2) · w · d(dst)^(-1/2), where d is the weighted in-degree with the
  self-loop and the inverse square root is taken as zero where d is not positive. Both programs apply the same host
  operations to the same arguments in the same order, so the arrays are equal as whole arrays, with no reading at an
  index. The computation is followed in its three stretches — the indices, weights and degrees; the selection of the
  inverse square root; the two gathers and products — each array named once and then used by name.
-/
import proofs.«106816_j7524782702918_1_alg».proof.Proof.Gen.KernelIdeal.Frame
import proofs.«106816_j7524782702918_1_alg».proof.Proof.Gen.ReferenceIdeal.Read
import proofs.«106816_j7524782702918_1_alg».proof.Proof.Carry
import proofs.«106816_j7524782702918_1_alg».proof.Proof.LibLineCall
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Stages

open Cert.KernelIdeal Cert.KernelIdeal.Gen Cert.ReferenceIdeal.Read Cert.LibLine
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## The first stretch: indices, weights, degrees -/

/-- The source indices with the self-loops appended. -/
theorem U1_src : StableHlo.after hostOps0 (W0 m ρ c) (Proc.devRef .tc main_v5) = val_main_v6 (F := Ideal) (m ((c : Thread nD τ).loc main_arg1)) := by
  after_results_simp
  rfl

/-- The destination indices with the self-loops appended. -/
theorem U1_dst : StableHlo.after hostOps0 (W0 m ρ c) (Proc.devRef .tc main_v6) = val_main_v7 (F := Ideal) (m ((c : Thread nD τ).loc main_arg1)) := by
  after_results_simp
  rfl

/-- The edge weights with a one per self-loop appended. -/
theorem U1_w : StableHlo.after hostOps0 (W0 m ρ c) (Proc.devRef .tc main_v8) = val_main_v9 (F := Ideal) (m ((c : Thread nD τ).loc main_arg2)) := by
  after_results_simp
  rfl

/-- The three arrays of zeros. -/
theorem U1_z9 : StableHlo.after hostOps0 (W0 m ρ c) (Proc.devRef .tc main_v9) = val_main_v10 (F := Ideal) := by
  after_results_simp
  rfl
theorem U1_z12 : StableHlo.after hostOps0 (W0 m ρ c) (Proc.devRef .tc main_v12) = val_main_v13 (F := Ideal) := by
  after_results_simp
  rfl
theorem U1_z15 : StableHlo.after hostOps0 (W0 m ρ c) (Proc.devRef .tc main_v15) = val_main_v16 (F := Ideal) := by
  after_results_simp
  rfl

/-- The destination indices as a column. -/
theorem U1_dcol : StableHlo.after hostOps0 (W0 m ρ c) (Proc.devRef .tc main_v10) = val_main_v11 (F := Ideal) (m ((c : Thread nD τ).loc main_arg1)) := by
  refine (stage_unary Carry.writes0 12 main_v6 main_v10 _ rfl (by decide) (by decide) (W0 m ρ c)).trans ?_
  rw [U1_dst]
  rfl

/-- The weighted in-degree: the weights summed at their destinations. -/
theorem U1_deg : StableHlo.after hostOps0 (W0 m ρ c) (Proc.devRef .tc main_v11) = val_main_v12 (F := Ideal) (m ((c : Thread nD τ).loc main_arg1)) (m ((c : Thread nD τ).loc main_arg2)) := by
  refine (stage_ternary Carry.writes0 13 main_v9 main_v10 main_v8 main_v11 _ rfl (by decide) (by decide) (by decide) (by decide) (W0 m ρ c)).trans ?_
  rw [U1_z9, U1_dcol, U1_w]
  rfl

/-- Where the degree is positive. -/
theorem U1_pos : StableHlo.after hostOps0 (W0 m ρ c) (Proc.devRef .tc main_v13) = val_main_v14 (F := Ideal) (m ((c : Thread nD τ).loc main_arg1)) (m ((c : Thread nD τ).loc main_arg2)) := by
  refine (stage_binary Carry.writes0 16 main_v11 main_v12 main_v13 _ rfl (by decide) (by decide) (by decide) (W0 m ρ c)).trans ?_
  rw [U1_deg, U1_z12]
  rfl

/-- The inverse square root of the degree. -/
theorem U1_rs : StableHlo.after hostOps0 (W0 m ρ c) (Proc.devRef .tc main_v14) = val_main_v15 (F := Ideal) (m ((c : Thread nD τ).loc main_arg1)) (m ((c : Thread nD τ).loc main_arg2)) := by
  refine (stage_unary Carry.writes0 17 main_v11 main_v14 _ rfl (by decide) (by decide) (W0 m ρ c)).trans ?_
  rw [U1_deg]
  rfl

/-! ## The second stretch: the inverse square root where the degree is positive, zero elsewhere -/

theorem U2_dinv : StableHlo.after hostOps0_1 (StableHlo.after hostOps0 (W0 m ρ c)) (Proc.devRef .tc main_v16) = val_main_v17 (F := Ideal) (m ((c : Thread nD τ).loc main_arg1)) (m ((c : Thread nD τ).loc main_arg2)) := by
  refine (stage_tternary Carry.writes0_1 0 main_v13 main_v14 main_v15 main_v16
    (select : (⟨S100000, .i1⟩ : BufTy).Contents (Elt Ideal) → (⟨S100000, .f32⟩ : BufTy).Contents (Elt Ideal)
      → (⟨S100000, .f32⟩ : BufTy).Contents (Elt Ideal) → (⟨S100000, .f32⟩ : BufTy).Contents (Elt Ideal))
    rfl (by decide) (by decide) (by decide) (by decide) (StableHlo.after hostOps0 (W0 m ρ c))).trans ?_
  rw [after_of_writesAre Carry.writes0_1 (StableHlo.after hostOps0 (W0 m ρ c)) (r := main_v13) (by decide),
    after_of_writesAre Carry.writes0_1 (StableHlo.after hostOps0 (W0 m ρ c)) (r := main_v14) (by decide),
    after_of_writesAre Carry.writes0_1 (StableHlo.after hostOps0 (W0 m ρ c)) (r := main_v15) (by decide), U1_pos, U1_rs, U1_z15]
  rfl

theorem U2_src : StableHlo.after hostOps0_1 (StableHlo.after hostOps0 (W0 m ρ c)) (Proc.devRef .tc main_v5) = val_main_v6 (F := Ideal) (m ((c : Thread nD τ).loc main_arg1)) :=
  (after_of_writesAre Carry.writes0_1 _ (by decide)).trans (U1_src m ρ c)
theorem U2_dst : StableHlo.after hostOps0_1 (StableHlo.after hostOps0 (W0 m ρ c)) (Proc.devRef .tc main_v6) = val_main_v7 (F := Ideal) (m ((c : Thread nD τ).loc main_arg1)) :=
  (after_of_writesAre Carry.writes0_1 _ (by decide)).trans (U1_dst m ρ c)
theorem U2_w : StableHlo.after hostOps0_1 (StableHlo.after hostOps0 (W0 m ρ c)) (Proc.devRef .tc main_v8) = val_main_v9 (F := Ideal) (m ((c : Thread nD τ).loc main_arg2)) :=
  (after_of_writesAre Carry.writes0_1 _ (by decide)).trans (U1_w m ρ c)

/-! ## The third stretch: the normalisation of every edge -/

/-- The per-edge normalisation. -/
theorem W3_norm : W3 m ρ c (Proc.devRef .tc main_v32) = val_main_v33 (F := Ideal) (m ((c : Thread nD τ).loc main_arg1)) (m ((c : Thread nD τ).loc main_arg2)) := by
  show StableHlo.after hostOps0_2 (StableHlo.after hostOps0_1 (StableHlo.after hostOps0 (W0 m ρ c))) (Proc.devRef .tc main_v32) = _
  have h5 := U2_src m ρ c
  have h6 := U2_dst m ρ c
  have h8 := U2_w m ρ c
  have h16 := U2_dinv m ρ c
  generalize StableHlo.after hostOps0_1 (StableHlo.after hostOps0 (W0 m ρ c)) = U at h5 h6 h8 h16 ⊢
  after_results_simp
  rw [h5, h6, h8, h16]
  rfl

theorem W3_src : W3 m ρ c (Proc.devRef .tc main_v5) = val_main_v6 (F := Ideal) (m ((c : Thread nD τ).loc main_arg1)) :=
  (after_of_writesAre Carry.writes0_2 _ (by decide)).trans (U2_src m ρ c)
theorem W3_dst : W3 m ρ c (Proc.devRef .tc main_v6) = val_main_v7 (F := Ideal) (m ((c : Thread nD τ).loc main_arg1)) :=
  (after_of_writesAre Carry.writes0_2 _ (by decide)).trans (U2_dst m ρ c)

end Cert.KernelIdeal.Stages

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Matmul0.lean ====
/-
  The first dense projection of the network, as the pipelined region computes it: the node features, a
  [100000, 269] array, times the first weight matrix, [269, 64]. The region walks twenty blocks of 5000 rows; at each it
  multiplies the block of rows by the whole weight matrix on the matrix unit and writes the block of the result
  back. Since the blocks tile the rows, the result array ends as the product of the two arrays, entry by entry the
  sum over the 269 features — whatever the buffers held when the region was entered.
-/
import proofs.«106816_j7524782702918_1_alg».proof.Proof.Gen.KernelIdeal.Frame
import proofs.«106816_j7524782702918_1_alg».proof.Proof.LibDotRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-! ## Region 0: a [100000, 269] array times a [269, 64] array, twenty blocks of 5000 rows -/

/-- The product of the two arrays, entry by entry: row `i 0` of the left against column `i 1` of the right. -/
def prod0 (X : S100000x269.Idx → EReal) (W : S269x64.Idx → EReal) : S100000x64.Idx → EReal :=
  fun i => ∑ k : Fin 269, X (ix2 (i 0) k) * W (ix2 k (i 1))

/-- What one grid point computes from its two loaded blocks, at row `r` and column `q` of the block: narrowing to
    bf16 is the identity on extended reals, and the matrix unit's product into a zero accumulator is the sum over the
    contracted axis. -/
theorem pay0_apply (x0 : Vec Ideal S5000x269 .f32) (x1 : Vec Ideal S269x64 .f32) (r : Fin 5000) (q : Fin 64) :
    Gen.k0_pay1 (F := Ideal) x0 x1 (ix2 r q) = ∑ k : Fin 269, x0 (ix2 r k) * x1 (ix2 k q) := by
  unfold Gen.k0_pay1
  exact matmul_zero_rows dot_S5000x269_S269x64_S5000x64_1_0_0_1_n_n none rfl rfl (fun _ _ => rfl) (fun _ _ => rfl)
    (fun _ _ => rfl) (fun _ _ => rfl) _ _ r q

/-- One block entry against one array entry: if row `j 0` of the left block is row `i 0` of the left array, and
    column `j 1` of the right block is column `i 1` of the right array, the block's entry at `j` is the product's
    entry at `i`. -/
theorem point0 (X : S100000x269.Idx → EReal) (W : S269x64.Idx → EReal) (x0 : Vec Ideal S5000x269 .f32)
    (x1 : Vec Ideal S269x64 .f32) (j : S5000x64.Idx) (i : S100000x64.Idx)
    (h0 : ∀ k : Fin 269, x0 (ix2 (j 0) k) = X (ix2 (i 0) k)) (h1 : ∀ k : Fin 269, x1 (ix2 k (j 1)) = W (ix2 k (i 1))) :
    Gen.k0_pay1 (F := Ideal) x0 x1 j = prod0 X W i :=
  calc Gen.k0_pay1 (F := Ideal) x0 x1 j = Gen.k0_pay1 (F := Ideal) x0 x1 (ix2 (j 0) (j 1)) := congrArg (Gen.k0_pay1 (F := Ideal) x0 x1) (eq_ix2 j)
    _ = ∑ k : Fin 269, x0 (ix2 (j 0) k) * x1 (ix2 k (j 1)) := pay0_apply x0 x1 (j 0) (j 1)
    _ = prod0 X W i := Finset.sum_congr rfl fun k _ => by rw [h0 k, h1 k]

/-- Where the three windows' blocks sit at grid point `t`: the row blocks of the left array and of the result move
    with the point, the right array is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0_eq (c : Dev nD) (t : Fin cfg0.N) :
    (Gen.dat0 (F := Ideal) V c).flushed 2 t
      = ((cfg0.win 2).blk t).view.read (Elt Ideal) (prod0 (V c main_arg0) (V c main_arg3)) := by
  show (cfg0.win 2).cut (grid0.coords t) ((Gen.dat0 (F := Ideal) V c).after 2 t) = _
  rw [Gen.after0_2]
  unfold Gen.out0_2
  rw [View.canon_unit_zero hz]
  simp only [View.ld_unit_zero (S := S5000x269) hz, View.ld_unit_zero (S := S269x64) hz]
  obtain ⟨e0, e1, e2, e3, e4, e5⟩ := idx_facts0 t
  funext j
  refine point0 (V c main_arg0) (V c main_arg3) _ _ j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 269 + 1 * k.val = k.val; omega
  · show V c main_arg3 (((cfg0.win 1).blk t).view.emb (ix2 k (j 1))) = V c main_arg3 (ix2 k ((((cfg0.win 2).blk t).view.emb j) 1))
    refine congrArg (V c main_arg3) ?_
    funext a; apply Fin.ext
    match a with
    | ⟨0, _⟩ => show win0_1.index t (0 : Fin 2) * 269 + 1 * k.val = k.val; omega
    | ⟨1, _⟩ => show win0_1.index t (1 : Fin 2) * 64 + 1 * (j 1).val = win0_2.index t (1 : Fin 2) * 64 + 1 * (j 1).val; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Every row of the result lies in the block of the point numbered by its row divided by 5000. -/
theorem cover0 (i : S100000x64.Idx) : ∃ t : Fin cfg0.N, (cfg0.win 2).flush t = true ∧ i ∈ ((cfg0.win 2).blk t).view.set := by
  have hN : grid0.N = 20 := Gen.N_0
  have hi0 : (i 0).val < 100000 := (i 0).isLt
  have hi1 : (i 1).val < 64 := (i 1).isLt
  let t : Fin cfg0.N := ⟨(i 0).val / 5000, by show (i 0).val / 5000 < grid0.N; rw [hN]; omega⟩
  obtain ⟨e0, e1, e2, e3, e4, e5⟩ := idx_facts0 t
  have e4' : win0_2.index t (0 : Fin 2) = (i 0).val / 5000 := e4
  refine ⟨t, Gen.flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the result array is the product of the two arrays as the region found them. -/
theorem final0 (c : Dev nD) :
    (Gen.dat0 (F := Ideal) V c).arrAt 2 cfg0.N = prod0 (V c main_arg0) (V c main_arg3) :=
  (Gen.dat0 (F := Ideal) V c).arrAt_eq_of_cover 2 (prod0 (V c main_arg0) (V c main_arg3))
    (fun t _ => flushed0_eq V c t) cover0

end Cert.KernelIdeal.RegionValue

end
-- ==== Proof.BiasRegions.lean ====
/- The three bias-and-activation regions of the program, each read as ONE function of the two arrays it reads.
   A region of this kind walks twenty grid points; at point `t` it takes rows `5000 t … 5000 t + 4999` of a
   `[100000, f]` array `x`, the single row of a `[1, f]` array `b`, and leaves in rows `5000 t … 5000 t + 4999` of its
   result `max (x[r, k] + b[0, k]) 0` (regions 1 and 3, `f = 64` and `f = 32`) or `x[r, k] + b[0, k]` (region 5, `f = 1`).
   The twenty row blocks tile the result, so after the region the result array is that function at EVERY index,
   whatever the buffers held when the region was entered (the parameter `V`).
   Per region: the function (`biasRelu64`, `biasRelu32`, `biasAdd1`); the body's value at one index of a block
   (`…_of_blocks`); the block indices of the three windows over the grid (`blockIndex…`); a block of either input read
   at an index of the array (`rowBlock…_apply`, `biasRow…_apply`); what point `t` writes back (`writtenBack…`); which
   indices a point's block holds (`mem_rowBlock…`); every index is in the block of point `row / 5000`
   (`rows_covered…`); the array after the region (`final1`, `final3`, `final5`). -/
import proofs.«106816_j7524782702918_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

-- the buffer contents of every core when a region is entered: arbitrary
variable (V : (c : Dev nD) → (b : Ref sig .tc) → Buf (Elt Ideal) ((c : Thread nD τ).loc b))

/-- The zero offsets of a rank-2 rectangle, as the constant function. -/
theorem zeroOffsets : (![0, 0] : Fin 2 → Nat) = fun _ => 0 := funext fun a => by fin_cases a <;> rfl

/-! # Region 1: `max (x[r, k] + b[0, k]) 0` on `[100000, 64]` -/

/-- What region 1 leaves in its result: at row `r`, column `k`, `max (x[r, k] + b[0, k]) 0`. -/
abbrev biasRelu64 (x : S100000x64.Idx → Ideal .f32) (b : S1x64.Idx → Ideal .f32) : S100000x64.Idx → Ideal .f32 :=
  fun i => FloatOps.maximumf (FloatOps.addf (x i) (b (ix2 (0 : Fin 1) (i 1)))) (FloatOps.ofBits .f32 0x00000000#32)

/-- The body's value at one index of a block: the two identity reshapes read through, the row `[1, 64]` broadcast over
    the 5000 rows read at its column, the sum and the maximum with the zero constant elementwise. -/
theorem biasRelu64_of_blocks (x0 : FVec Ideal S5000x64 .f32) (x1 : FVec Ideal S1x64 .f32) (y : S5000x64.Idx) :
    k1_pay1 x0 x1 y = FloatOps.maximumf (FloatOps.addf (x0 y) (x1 (ix2 (0 : Fin 1) (y 1)))) (FloatOps.ofBits .f32 0x00000000#32) := by
  obtain ⟨p, q, rfl⟩ : ∃ (p : Fin 5000) (q : Fin 64), y = ix2 p q := ⟨y 0, y 1, eq_ix2 y⟩
  unfold k1_pay1
  show FloatOps.maximumf (FloatOps.addf (shapeCast S5000x64 x0 shapeCasts_S5000x64_S5000x64 (ix2 p q)) (broadcastTo S5000x64 (shapeCast S1x64 x1 shapeCasts_S1x64_S1x64) broadcasts_S1x64_S5000x64 (ix2 p q))) (FloatOps.ofBits .f32 0x00000000#32) = _
  rw [shapeCast_self, shapeCast_self, broadcastTo_1b_ab_apply]

/-- The block indices over the twenty points: the input rows move with the result's rows, block `t` at point `t`;
    every column index is zero; the bias row stays at block `(0, 0)`. -/
theorem blockIndex1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- The input rows' block at point `t`, at `y`, is the array at block index × block size + `y`, axis by axis. -/
theorem rowBlock1_apply (c : Dev nD) (t : Fin cfg1.N) (y : S5000x64.Idx) (k : S100000x64.Idx)
    (hk0 : (k 0).val = win1_0.index t (0 : Fin 2) * 5000 + (y 0).val) (hk1 : (k 1).val = win1_0.index t (1 : Fin 2) * 64 + (y 1).val) :
    (iblk1 V c 0 t : FVec Ideal S5000x64 .f32) y = (V c main_v46 : S100000x64.Idx → Ideal .f32) k := by
  unfold iblk1
  rw [View.read_apply]
  show V c main_v46 _ = V c main_v46 _
  congr 1
  funext a
  apply Fin.ext
  match a with
  | ⟨0, _⟩ => show win1_0.index t (0 : Fin 2) * 5000 + 1 * (y 0).val = (k 0).val; rw [hk0]; omega
  | ⟨1, _⟩ => show win1_0.index t (1 : Fin 2) * 64 + 1 * (y 1).val = (k 1).val; rw [hk1]; omega

/-- The bias row's block at point `t`, at `y`, is the array at block index × block size + `y`, axis by axis. -/
theorem biasRow1_apply (c : Dev nD) (t : Fin cfg1.N) (y : S1x64.Idx) (k : S1x64.Idx)
    (hk0 : (k 0).val = win1_1.index t (0 : Fin 2) * 1 + (y 0).val) (hk1 : (k 1).val = win1_1.index t (1 : Fin 2) * 64 + (y 1).val) :
    (iblk1 V c 1 t : FVec Ideal S1x64 .f32) y = (V c main_v47 : S1x64.Idx → Ideal .f32) k := by
  unfold iblk1
  rw [View.read_apply]
  show V c main_v47 _ = V c main_v47 _
  congr 1
  funext a
  apply Fin.ext
  match a with
  | ⟨0, _⟩ => show win1_1.index t (0 : Fin 2) * 1 + 1 * (y 0).val = (k 0).val; rw [hk0]; omega
  | ⟨1, _⟩ => show win1_1.index t (1 : Fin 2) * 64 + 1 * (y 1).val = (k 1).val; rw [hk1]; omega

/-- WHAT POINT `t` WRITES BACK is block `t` of `biasRelu64` of the two arrays as the region finds them: the body's one
    store covers its buffer, its loads read the whole input blocks, and the input blocks sit where the result's does. -/
theorem writtenBack1 (c : Dev nD) (t : Fin cfg1.N) :
    (dat1 V c).flushed 2 t = ((cfg1.win 2).blk t).view.read (Elt Ideal) (biasRelu64 (V c main_v46) (V c main_v47)) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S1x64) zeroOffsets]
  obtain ⟨e0, e1, e2, e3, e4, e5⟩ := blockIndex1 t
  funext j
  show k1_pay1 (iblk1 V c 0 t) (iblk1 V c 1 t) ((cfg1.win 2).xinj (grid1.coords t) j)
    = biasRelu64 (V c main_v46) (V c main_v47) (((cfg1.win 2).blk t).view.emb j)
  rw [biasRelu64_of_blocks]
  have h0 := rowBlock1_apply V c t ((cfg1.win 2).xinj (grid1.coords t) j) (((cfg1.win 2).blk t).view.emb j)
    (by show win1_2.index t (0 : Fin 2) * 5000 + 1 * (j 0).val = win1_0.index t (0 : Fin 2) * 5000 + (j 0).val; omega)
    (by show win1_2.index t (1 : Fin 2) * 64 + 1 * (j 1).val = win1_0.index t (1 : Fin 2) * 64 + (j 1).val; omega)
  have h1 := biasRow1_apply V c t (ix2 (0 : Fin 1) ((cfg1.win 2).xinj (grid1.coords t) j 1)) (ix2 (0 : Fin 1) ((((cfg1.win 2).blk t).view.emb j) 1))
    (by show 0 = win1_1.index t (0 : Fin 2) * 1 + 0; omega)
    (by show win1_2.index t (1 : Fin 2) * 64 + 1 * (j 1).val = win1_1.index t (1 : Fin 2) * 64 + (j 1).val; omega)
  rw [h0, h1]

/-- An index of the result is in point `t`'s block iff each coordinate is in the block's range on its axis. -/
theorem mem_rowBlock1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every index of the result is in the block of the point `row / 5000`, and every point writes back. -/
theorem rows_covered1 (i : S100000x64.Idx) : ∃ t : Fin cfg1.N, (cfg1.win 2).flush t = true ∧ i ∈ ((cfg1.win 2).blk t).view.set := by
  have hN : grid1.N = 20 := N_1
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [hN]; omega⟩, rfl⟩
  obtain ⟨e0, e1, e2, e3, e4, e5⟩ := blockIndex1 t
  refine ⟨t, flush1_2 t, ?_⟩
  rw [mem_rowBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE RESULT ARRAY AFTER REGION 1: `max (x[r, k] + b[0, k]) 0` at every index, of the two input arrays as the region finds them. -/
theorem final1 (c : Dev nD) :
    (dat1 (F := Ideal) V c).arrAt 2 cfg1.N
      = ((fun i => FloatOps.maximumf (FloatOps.addf ((V c main_v46 : S100000x64.Idx → Ideal .f32) i) ((V c main_v47 : S1x64.Idx → Ideal .f32) (ix2 (0 : Fin 1) (i 1)))) (FloatOps.ofBits .f32 0x00000000#32)) : S100000x64.Idx → Ideal .f32) :=
  (dat1 V c).arrAt_eq_of_cover 2 (biasRelu64 (V c main_v46) (V c main_v47)) (fun t _ => writtenBack1 V c t) rows_covered1

/-! # Region 3: `max (x[r, k] + b[0, k]) 0` on `[100000, 32]` -/

/-- What region 3 leaves in its result: at row `r`, column `k`, `max (x[r, k] + b[0, k]) 0`. -/
abbrev biasRelu32 (x : S100000x32.Idx → Ideal .f32) (b : S1x32.Idx → Ideal .f32) : S100000x32.Idx → Ideal .f32 :=
  fun i => FloatOps.maximumf (FloatOps.addf (x i) (b (ix2 (0 : Fin 1) (i 1)))) (FloatOps.ofBits .f32 0x00000000#32)

/-- The body's value at one index of a block: the two identity reshapes read through, the row `[1, 32]` broadcast over
    the 5000 rows read at its column, the sum and the maximum with the zero constant elementwise. -/
theorem biasRelu32_of_blocks (x0 : FVec Ideal S5000x32 .f32) (x1 : FVec Ideal S1x32 .f32) (y : S5000x32.Idx) :
    k3_pay1 x0 x1 y = FloatOps.maximumf (FloatOps.addf (x0 y) (x1 (ix2 (0 : Fin 1) (y 1)))) (FloatOps.ofBits .f32 0x00000000#32) := by
  obtain ⟨p, q, rfl⟩ : ∃ (p : Fin 5000) (q : Fin 32), y = ix2 p q := ⟨y 0, y 1, eq_ix2 y⟩
  unfold k3_pay1
  show FloatOps.maximumf (FloatOps.addf (shapeCast S5000x32 x0 shapeCasts_S5000x32_S5000x32 (ix2 p q)) (broadcastTo S5000x32 (shapeCast S1x32 x1 shapeCasts_S1x32_S1x32) broadcasts_S1x32_S5000x32 (ix2 p q))) (FloatOps.ofBits .f32 0x00000000#32) = _
  rw [shapeCast_self, shapeCast_self, broadcastTo_1b_ab_apply]

/-- The block indices over the twenty points: the input rows move with the result's rows, block `t` at point `t`;
    every column index is zero; the bias row stays at block `(0, 0)`. -/
theorem blockIndex3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- The input rows' block at point `t`, at `y`, is the array at block index × block size + `y`, axis by axis. -/
theorem rowBlock3_apply (c : Dev nD) (t : Fin cfg3.N) (y : S5000x32.Idx) (k : S100000x32.Idx)
    (hk0 : (k 0).val = win3_0.index t (0 : Fin 2) * 5000 + (y 0).val) (hk1 : (k 1).val = win3_0.index t (1 : Fin 2) * 32 + (y 1).val) :
    (iblk3 V c 0 t : FVec Ideal S5000x32 .f32) y = (V c main_v62 : S100000x32.Idx → Ideal .f32) k := by
  unfold iblk3
  rw [View.read_apply]
  show V c main_v62 _ = V c main_v62 _
  congr 1
  funext a
  apply Fin.ext
  match a with
  | ⟨0, _⟩ => show win3_0.index t (0 : Fin 2) * 5000 + 1 * (y 0).val = (k 0).val; rw [hk0]; omega
  | ⟨1, _⟩ => show win3_0.index t (1 : Fin 2) * 32 + 1 * (y 1).val = (k 1).val; rw [hk1]; omega

/-- The bias row's block at point `t`, at `y`, is the array at block index × block size + `y`, axis by axis. -/
theorem biasRow3_apply (c : Dev nD) (t : Fin cfg3.N) (y : S1x32.Idx) (k : S1x32.Idx)
    (hk0 : (k 0).val = win3_1.index t (0 : Fin 2) * 1 + (y 0).val) (hk1 : (k 1).val = win3_1.index t (1 : Fin 2) * 32 + (y 1).val) :
    (iblk3 V c 1 t : FVec Ideal S1x32 .f32) y = (V c main_v63 : S1x32.Idx → Ideal .f32) k := by
  unfold iblk3
  rw [View.read_apply]
  show V c main_v63 _ = V c main_v63 _
  congr 1
  funext a
  apply Fin.ext
  match a with
  | ⟨0, _⟩ => show win3_1.index t (0 : Fin 2) * 1 + 1 * (y 0).val = (k 0).val; rw [hk0]; omega
  | ⟨1, _⟩ => show win3_1.index t (1 : Fin 2) * 32 + 1 * (y 1).val = (k 1).val; rw [hk1]; omega

/-- WHAT POINT `t` WRITES BACK is block `t` of `biasRelu32` of the two arrays as the region finds them: the body's one
    store covers its buffer, its loads read the whole input blocks, and the input blocks sit where the result's does. -/
theorem writtenBack3 (c : Dev nD) (t : Fin cfg3.N) :
    (dat3 V c).flushed 2 t = ((cfg3.win 2).blk t).view.read (Elt Ideal) (biasRelu32 (V c main_v62) (V c main_v63)) := by
  show (cfg3.win 2).cut (grid3.coords t) ((dat3 V c).after 2 t) = _
  rw [after3_2]
  unfold out3_2
  rw [View.canon_unit_zero zeroOffsets]
  simp only [View.ld_unit_zero (S := S5000x32) zeroOffsets, View.ld_unit_zero (S := S1x32) zeroOffsets]
  obtain ⟨e0, e1, e2, e3, e4, e5⟩ := blockIndex3 t
  funext j
  show k3_pay1 (iblk3 V c 0 t) (iblk3 V c 1 t) ((cfg3.win 2).xinj (grid3.coords t) j)
    = biasRelu32 (V c main_v62) (V c main_v63) (((cfg3.win 2).blk t).view.emb j)
  rw [biasRelu32_of_blocks]
  have h0 := rowBlock3_apply V c t ((cfg3.win 2).xinj (grid3.coords t) j) (((cfg3.win 2).blk t).view.emb j)
    (by show win3_2.index t (0 : Fin 2) * 5000 + 1 * (j 0).val = win3_0.index t (0 : Fin 2) * 5000 + (j 0).val; omega)
    (by show win3_2.index t (1 : Fin 2) * 32 + 1 * (j 1).val = win3_0.index t (1 : Fin 2) * 32 + (j 1).val; omega)
  have h1 := biasRow3_apply V c t (ix2 (0 : Fin 1) ((cfg3.win 2).xinj (grid3.coords t) j 1)) (ix2 (0 : Fin 1) ((((cfg3.win 2).blk t).view.emb j) 1))
    (by show 0 = win3_1.index t (0 : Fin 2) * 1 + 0; omega)
    (by show win3_2.index t (1 : Fin 2) * 32 + 1 * (j 1).val = win3_1.index t (1 : Fin 2) * 32 + (j 1).val; omega)
  rw [h0, h1]

/-- An index of the result is in point `t`'s block iff each coordinate is in the block's range on its axis. -/
theorem mem_rowBlock3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v64).slice (win3_2.rect t)).set ↔ _
  rw [View.set_slice_whole, Rect.mem_set_unit]
  exact Iff.rfl

/-- Every index of the result is in the block of the point `row / 5000`, and every point writes back. -/
theorem rows_covered3 (i : S100000x32.Idx) : ∃ t : Fin cfg3.N, (cfg3.win 2).flush t = true ∧ i ∈ ((cfg3.win 2).blk t).view.set := by
  have hN : grid3.N = 20 := N_3
  have hi0 : (i 0).val < 100000 := (i 0).isLt
  have hi1 : (i 1).val < 32 := (i 1).isLt
  obtain ⟨t, ht⟩ : ∃ t : Fin cfg3.N, t.val = (i 0).val / 5000 :=
    ⟨⟨(i 0).val / 5000, by show (i 0).val / 5000 < grid3.N; rw [hN]; omega⟩, rfl⟩
  obtain ⟨e0, e1, e2, e3, e4, e5⟩ := blockIndex3 t
  refine ⟨t, flush3_2 t, ?_⟩
  rw [mem_rowBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- THE RESULT ARRAY AFTER REGION 3: `max (x[r, k] + b[0, k]) 0` at every index, of the two input arrays as the region finds them. -/
theorem final3 (c : Dev nD) :
    (dat3 (F := Ideal) V c).arrAt 2 cfg3.N
      = ((fun i => FloatOps.maximumf (FloatOps.addf ((V c main_v62 : S100000x32.Idx → Ideal .f32) i) ((V c main_v63 : S1x32.Idx → Ideal .f32) (ix2 (0 : Fin 1) (i 1)))) (FloatOps.ofBits .f32 0x00000000#32)) : S100000x32.Idx → Ideal .f32) :=
  (dat3 V c).arrAt_eq_of_cover 2 (biasRelu32 (V c main_v62) (V c main_v63)) (fun t _ => writtenBack3 V c t) rows_covered3

/-! # Region 5: `x[r, k] + b[0, k]` on `[100000, 1]` -/

/-- What region 5 leaves in its result: at row `r`, column `k`, `x[r, k] + b[0, k]`. -/
abbrev biasAdd1 (x : S100000x1.Idx → Ideal .f32) (b : S1x1.Idx → Ideal .f32) : S100000x1.Idx → Ideal .f32 :=
  fun i => FloatOps.addf (x i) (b (ix2 (0 : Fin 1) (i 1)))

/-- The body's value at one index of a block: the two identity reshapes read through, the row `[1, 1]` broadcast over
    the 5000 rows read at its column, the sum elementwise. -/
theorem biasAdd1_of_blocks (x0 : FVec Ideal S5000x1 .f32) (x1 : FVec Ideal S1x1 .f32) (y : S5000x1.Idx) :
    k5_pay1 x0 x1 y = FloatOps.addf (x0 y) (x1 (ix2 (0 : Fin 1) (y 1))) := by
  obtain ⟨p, q, rfl⟩ : ∃ (p : Fin 5000) (q : Fin 1), y = ix2 p q := ⟨y 0, y 1, eq_ix2 y⟩
  unfold k5_pay1
  show FloatOps.addf (shapeCast S5000x1 x0 shapeCasts_S5000x1_S5000x1 (ix2 p q)) (broadcastTo S5000x1 (shapeCast S1x1 x1 shapeCasts_S1x1_S1x1) broadcasts_S1x1_S5000x1 (ix2 p q)) = _
  rw [shapeCast_self, shapeCast_self, broadcastTo_1b_ab_apply]

/-- The block indices over the twenty points: the input rows move with the result's rows, block `t` at point `t`;
    every column index is zero; the bias row stays at block `(0, 0)`. -/
theorem blockIndex5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) = t.val :=
  (by decide +kernel : ∀ t : Fin grid5.N, _)

/-- The input rows' block at point `t`, at `y`, is the array at block index × block size + `y`, axis by axis. -/
theorem rowBlock5_apply (c : Dev nD) (t : Fin cfg5.N) (y : S5000x1.Idx) (k : S100000x1.Idx)
    (hk0 : (k 0).val = win5_0.index t (0 : Fin 2) * 5000 + (y 0).val) (hk1 : (k 1).val = win5_0.index t (1 : Fin 2) * 1 + (y 1).val) :
    (iblk5 V c 0 t : FVec Ideal S5000x1 .f32) y = (V c main_v77 : S100000x1.Idx → Ideal .f32) k := by
  unfold iblk5
  rw [View.read_apply]
  show V c main_v77 _ = V c main_v77 _
  congr 1
  funext a
  apply Fin.ext
  match a with
  | ⟨0, _⟩ => show win5_0.index t (0 : Fin 2) * 5000 + 1 * (y 0).val = (k 0).val; rw [hk0]; omega
  | ⟨1, _⟩ => show win5_0.index t (1 : Fin 2) * 1 + 1 * (y 1).val = (k 1).val; rw [hk1]; omega

/-- The bias row's block at point `t`, at `y`, is the array at block index × block size + `y`, axis by axis. -/
theorem biasRow5_apply (c : Dev nD) (t : Fin cfg5.N) (y : S1x1.Idx) (k : S1x1.Idx)
    (hk0 : (k 0).val = win5_1.index t (0 : Fin 2) * 1 + (y 0).val) (hk1 : (k 1).val = win5_1.index t (1 : Fin 2) * 1 + (y 1).val) :
    (iblk5 V c 1 t : FVec Ideal S1x1 .f32) y = (V c main_v78 : S1x1.Idx → Ideal .f32) k := by
  unfold iblk5
  rw [View.read_apply]
  show V c main_v78 _ = V c main_v78 _
  congr 1
  funext a
  apply Fin.ext
  match a with
  | ⟨0, _⟩ => show win5_1.index t (0 : Fin 2) * 1 + 1 * (y 0).val = (k 0).val; rw [hk0]; omega
  | ⟨1, _⟩ => show win5_1.index t (1 : Fin 2) * 1 + 1 * (y 1).val = (k 1).val; rw [hk1]; omega

/-- WHAT POINT `t` WRITES BACK is block `t` of `biasAdd1` of the two arrays as the region finds them: the body's one
    store covers its buffer, its loads read the whole input blocks, and the input blocks sit where the result's does. -/
theorem writtenBack5 (c : Dev nD) (t : Fin cfg5.N) :
    (dat5 V c).flushed 2 t = ((cfg5.win 2).blk t).view.read (Elt Ideal) (biasAdd1 (V c main_v77) (V c main_v78)) := by
  show (cfg5.win 2).cut (grid5.coords t) ((dat5 V c).after 2 t) = _
  rw [after5_2]
  unfold out5_2
  rw [View.canon_unit_zero zeroOffsets]
  simp only [View.ld_unit_zero (S := S5000x1) zeroOffsets, View.ld_unit_zero (S := S1x1) zeroOffsets]
  obtain ⟨e0, e1, e2, e3, e4, e5⟩ := blockIndex5 t
  funext j
  show k5_pay1 (iblk5 V c 0 t) (iblk5 V c 1 t) ((cfg5.win 2).xinj (grid5.coords t) j)
    = biasAdd1 (V c main_v77) (V c main_v78) (((cfg5.win 2).blk t).view.emb j)
  rw [biasAdd1_of_blocks]
  have h0 := rowBlock5_apply V c t ((cfg5.win 2).xinj (grid5.coords t) j) (((cfg5.win 2).blk t).view.emb j)
    (by show win5_2.index t (0 : Fin 2) * 5000 + 1 * (j 0).val = win5_0.index t (0 : Fin 2) * 5000 + (j 0).val; omega)
    (by show win5_2.index t (1 : Fin 2) * 1 + 1 * (j 1).val = win5_0.index t (1 : Fin 2) * 1 + (j 1).val; omega)
  have h1 := biasRow5_apply V c t (ix2 (0 : Fin 1) ((cfg5.win 2).xinj (grid5.coords t) j 1)) (ix2 (0 : Fin 1) ((((cfg5.win 2).blk t).view.emb j) 1))
    (by show 0 = win5_1.index t (0 : Fin 2) * 1 + 0; omega)
    (by show win5_2.index t (1 : Fin 2) * 1 + 1 * (j 1).val = win5_1.index t (1 : Fin 2) * 1 + (j 1).val; omega)
  rw [h0, h1]

/-- An index of the result is in point `t`'s block iff each coordinate is in the block's range on its axis. -/
theorem mem_rowBlock5 (t : Fin cfg5.N) (i : S100000x1.Idx) :
    i ∈ ((cfg5.win 2).blk t).view.set ↔ ∀ a : Fin 2, win5_2.index t a * S5000x1.size a ≤ (i a).val ∧ (i a).val < win5_2.index t a * S5000x1.size a + S5000x1.size a := by
  show i ∈ ((View.whole main_v79).slice (win5_2.rect t)).set ↔ _
  rw [View.set_slice_whole, Rect.mem_set_unit]
  exact Iff.rfl

/-- Every index of the result is in the block of the point `row / 5000`, and every point writes back. -/
theorem rows_covered5 (i : S100000x1.Idx) : ∃ t : Fin cfg5.N, (cfg5.win 2).flush t = true ∧ i ∈ ((cfg5.win 2).blk t).view.set := by
  have hN : grid5.N = 20 := N_5
  have hi0 : (i 0).val < 100000 := (i 0).isLt
  have hi1 : (i 1).val < 1 := (i 1).isLt
  obtain ⟨t, ht⟩ : ∃ t : Fin cfg5.N, t.val = (i 0).val / 5000 :=
    ⟨⟨(i 0).val / 5000, by show (i 0).val / 5000 < grid5.N; rw [hN]; omega⟩, rfl⟩
  obtain ⟨e0, e1, e2, e3, e4, e5⟩ := blockIndex5 t
  refine ⟨t, flush5_2 t, ?_⟩
  rw [mem_rowBlock5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 1 ≤ (i 1).val ∧ (i 1).val < win5_2.index t (1 : Fin 2) * 1 + 1; omega

/-- THE RESULT ARRAY AFTER REGION 5: `x[r, k] + b[0, k]` at every index, of the two input arrays as the region finds them. -/
theorem final5 (c : Dev nD) :
    (dat5 (F := Ideal) V c).arrAt 2 cfg5.N
      = ((fun i => FloatOps.addf ((V c main_v77 : S100000x1.Idx → Ideal .f32) i) ((V c main_v78 : S1x1.Idx → Ideal .f32) (ix2 (0 : Fin 1) (i 1)))) : S100000x1.Idx → Ideal .f32) :=
  (dat5 V c).arrAt_eq_of_cover 2 (biasAdd1 (V c main_v77) (V c main_v78)) (fun t _ => writtenBack5 V c t) rows_covered5

end Cert.KernelIdeal.RegionValue

end
-- ==== Proof.Layer1.lean ====
/-
  The first layer, stage by stage, in the kernel program and in the reference. The dense projection: the region's
  product of the node features with the first weight matrix is the reference's contraction, entry by entry the same
  sum over the 269 features. The message passing: both programs gather the projected rows at the source indices,
  scale them by the edge normalisation and add them up at the destination indices with the same host operations, so
  the aggregated arrays are equal as whole arrays once the projections are.
-/
import proofs.«106816_j7524782702918_1_alg».proof.Proof.Gen.KernelIdeal.Frame
import proofs.«106816_j7524782702918_1_alg».proof.Proof.Gen.ReferenceIdeal.Read
import proofs.«106816_j7524782702918_1_alg».proof.Proof.Carry
import proofs.«106816_j7524782702918_1_alg».proof.Proof.Graph
import proofs.«106816_j7524782702918_1_alg».proof.Proof.Matmul0
import proofs.«106816_j7524782702918_1_alg».proof.Proof.BiasRegions
import Idealize.ShloMosaic.Lib.ValueLayout
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Stages

open Cert.KernelIdeal Cert.KernelIdeal.Gen Cert.ReferenceIdeal.Read
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The region's product is the reference's contraction of the same two arrays. -/
theorem prod0_ref (X : S100000x269.Idx → EReal) (W : S269x64.Idx → EReal) :
    RegionValue.prod0 X W = val_main_v4 (F := Ideal) X W := by
  funext i
  rw [val_main_v4_apply]
  exact Finset.sum_congr rfl fun k _ => congrArg₂ (· * ·) (congrArg X (funext fun a => match a with | ⟨0, _⟩ => rfl | ⟨1, _⟩ => rfl)) (congrArg W (funext fun a => match a with | ⟨0, _⟩ => rfl | ⟨1, _⟩ => rfl))

/-- After the first region its result array is the reference's projection of the node features. -/
theorem W4_proj : W4 m ρ c (Proc.devRef .tc main_v33) = val_main_v4 (F := Ideal) (m ((c : Thread nD τ).loc main_arg0)) (m ((c : Thread nD τ).loc main_arg3)) := by
  refine (W4_arr m ρ c 2).trans ?_
  rw [RegionValue.final0 (V3 m ρ) c]
  show RegionValue.prod0 (W3 m ρ c (Proc.devRef .tc main_arg0)) (W3 m ρ c (Proc.devRef .tc main_arg3)) = _
  rw [Carry.up3 m ρ c main_arg0 (by decide) (by decide) (by decide), Carry.up3 m ρ c main_arg3 (by decide) (by decide) (by decide)]
  exact prod0_ref _ _

/-- The graph arrays are still there after the first region. -/
theorem W4_src : W4 m ρ c (Proc.devRef .tc main_v5) = val_main_v6 (F := Ideal) (m ((c : Thread nD τ).loc main_arg1)) :=
  (Carry.up4 m ρ c main_v5 (by decide)).trans (W3_src m ρ c)
theorem W4_dst : W4 m ρ c (Proc.devRef .tc main_v6) = val_main_v7 (F := Ideal) (m ((c : Thread nD τ).loc main_arg1)) :=
  (Carry.up4 m ρ c main_v6 (by decide)).trans (W3_dst m ρ c)
theorem W4_norm : W4 m ρ c (Proc.devRef .tc main_v32) = val_main_v33 (F := Ideal) (m ((c : Thread nD τ).loc main_arg1)) (m ((c : Thread nD τ).loc main_arg2)) :=
  (Carry.up4 m ρ c main_v32 (by decide)).trans (W3_norm m ρ c)
theorem W4_arg4 : W4 m ρ c (Proc.devRef .tc main_arg4) = (m ((c : Thread nD τ).loc main_arg4)) :=
  (Carry.up4 m ρ c main_arg4 (by decide)).trans (Carry.up3 m ρ c main_arg4 (by decide) (by decide) (by decide))

/-- The first layer's aggregated messages: the projected rows gathered at the sources, scaled by the normalisation,
    summed at the destinations. -/
theorem W5_agg : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v46) = _
  after_results_simp
  rw [W4_src, W4_dst, W4_norm, W4_proj]
  rfl

/-- The first bias, laid out as one row. -/
theorem W5_bias : W5 m ρ c (Proc.devRef .tc main_v47) = shapeCast S1x64 (m ((c : Thread nD τ).loc main_arg4)) shapeCasts_S64_S1x64 := by
  show StableHlo.after hostOps1 (W4 m ρ c) (Proc.devRef .tc main_v47) = _
  after_results_simp
  rw [W4_arg4]
  rfl

/-- After the second region: the first layer's output, the aggregated messages plus the bias, negative entries
    replaced by zero. The region adds the bias row to every row of its block and takes the maximum with zero; the
    reference broadcasts the bias over all rows, adds and takes the maximum: entry by entry the same number. -/
theorem W6_hidden : W6 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  have eA : V5 m ρ c main_v46 = _ := W5_agg m ρ c
  have eB : V5 m ρ c main_v47 = _ := W5_bias m ρ c
  rw [RegionValue.final1 (V5 m ρ) c, eA, eB]
  funext i
  rw [val_main_v50_apply, val_main_v49_apply, val_main_v48_apply, val_main_v47_apply, val_main_call1_v0_apply, val_main_call1_cst_apply]
  exact congrArg (fun t => FloatOps.maximumf (FloatOps.addf _ t) _)
    ((shapeCast_a_1a_apply (m ((c : Thread nD τ).loc main_arg4)) shapeCasts_S64_S1x64 (0 : Fin 1) (i 1)).trans (congrArg (m ((c : Thread nD τ).loc main_arg4)) (funext fun a => match a with | ⟨0, _⟩ => rfl)))

/-- The second weight matrix is untouched when the third region is entered. -/
theorem W6_arg5 : W6 m ρ c (Proc.devRef .tc main_arg5) = (m ((c : Thread nD τ).loc main_arg5)) :=
  (Carry.up6 m ρ c main_arg5 (by decide) (by decide)).trans
    ((Carry.up4 m ρ c main_arg5 (by decide)).trans (Carry.up3 m ρ c main_arg5 (by decide) (by decide) (by decide)))

end Cert.KernelIdeal.Stages

end
-- ==== Proof.Matmul2.lean ====
/-
  The second dense projection, as its pipelined region computes it: the hidden features after the first layer, a
  [100000, 64] array, times the second weight matrix, [64, 32], twenty blocks of 5000 rows, each block multiplied by
  the whole weight matrix on the matrix unit. The blocks tile the rows, so the result array ends as the product of
  the two arrays, entry by entry the sum over the 64 hidden features.
-/
import proofs.«106816_j7524782702918_1_alg».proof.Proof.Gen.KernelIdeal.Frame
import proofs.«106816_j7524782702918_1_alg».proof.Proof.LibDotRows
import proofs.«106816_j7524782702918_1_alg».proof.Proof.Matmul0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 2: a [100000, 64] array times a [64, 32] array, twenty blocks of 5000 rows -/

/-- The product of the two arrays, entry by entry: row `i 0` of the left against column `i 1` of the right. -/
def prod2 (X : S100000x64.Idx → EReal) (W : S64x32.Idx → EReal) : S100000x32.Idx → EReal :=
  fun i => ∑ k : Fin 64, X (ix2 (i 0) k) * W (ix2 k (i 1))

/-- What one grid point computes from its two loaded blocks, at row `r` and column `q` of the block: a cast to the same shape changes nothing, narrowing to
    bf16 is the identity on extended reals, and the matrix unit's product into a zero accumulator is the sum over the
    contracted axis. -/
theorem pay2_apply (x0 : Vec Ideal S5000x64 .f32) (x1 : Vec Ideal S64x32 .f32) (r : Fin 5000) (q : Fin 32) :
    Gen.k2_pay1 (F := Ideal) x0 x1 (ix2 r q) = ∑ k : Fin 64, x0 (ix2 r k) * x1 (ix2 k q) := by
  unfold Gen.k2_pay1
  rw [shapeCast_self]
  exact matmul_zero_rows dot_S5000x64_S64x32_S5000x32_1_0_0_1_n_n none rfl rfl (fun _ _ => rfl) (fun _ _ => rfl)
    (fun _ _ => rfl) (fun _ _ => rfl) _ _ r q

/-- One block entry against one array entry: if row `j 0` of the left block is row `i 0` of the left array, and
    column `j 1` of the right block is column `i 1` of the right array, the block's entry at `j` is the product's
    entry at `i`. -/
theorem point2 (X : S100000x64.Idx → EReal) (W : S64x32.Idx → EReal) (x0 : Vec Ideal S5000x64 .f32)
    (x1 : Vec Ideal S64x32 .f32) (j : S5000x32.Idx) (i : S100000x32.Idx)
    (h0 : ∀ k : Fin 64, x0 (ix2 (j 0) k) = X (ix2 (i 0) k)) (h1 : ∀ k : Fin 64, x1 (ix2 k (j 1)) = W (ix2 k (i 1))) :
    Gen.k2_pay1 (F := Ideal) x0 x1 j = prod2 X W i :=
  calc Gen.k2_pay1 (F := Ideal) x0 x1 j = Gen.k2_pay1 (F := Ideal) x0 x1 (ix2 (j 0) (j 1)) := congrArg (Gen.k2_pay1 (F := Ideal) x0 x1) (eq_ix2 j)
    _ = ∑ k : Fin 64, x0 (ix2 (j 0) k) * x1 (ix2 k (j 1)) := pay2_apply x0 x1 (j 0) (j 1)
    _ = prod2 X W i := Finset.sum_congr rfl fun k _ => by rw [h0 k, h1 k]

/-- Where the three windows' blocks sit at grid point `t`: the row blocks of the left array and of the result move
    with the point, the right array is one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed2_eq (c : Dev nD) (t : Fin cfg2.N) :
    (Gen.dat2 (F := Ideal) V c).flushed 2 t
      = ((cfg2.win 2).blk t).view.read (Elt Ideal) (prod2 (V c main_v48) (V c main_arg5)) := by
  show (cfg2.win 2).cut (grid2.coords t) ((Gen.dat2 (F := Ideal) V c).after 2 t) = _
  rw [Gen.after2_2]
  unfold Gen.out2_2
  rw [View.canon_unit_zero hz]
  simp only [View.ld_unit_zero (S := S5000x64) hz, View.ld_unit_zero (S := S64x32) hz]
  obtain ⟨e0, e1, e2, e3, e4, e5⟩ := idx_facts2 t
  funext j
  refine point2 (V c main_v48) (V c main_arg5) _ _ j (((cfg2.win 2).blk t).view.emb j) (fun k => ?_) (fun k => ?_)
  · show V c main_v48 (((cfg2.win 0).blk t).view.emb (ix2 (j 0) k)) = V c main_v48 (ix2 ((((cfg2.win 2).blk t).view.emb j) 0) k)
    refine congrArg (V c main_v48) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  · show V c main_arg5 (((cfg2.win 1).blk t).view.emb (ix2 k (j 1))) = V c main_arg5 (ix2 k ((((cfg2.win 2).blk t).view.emb j) 1))
    refine congrArg (V c main_arg5) ?_
    funext a; apply Fin.ext
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega

/-- An index of the result array is in point `t`'s block iff each coordinate is in the block's range on its axis. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v49).slice (win2_2.rect t)).set ↔ _
  rw [View.set_slice_whole, Rect.mem_set_unit]
  exact Iff.rfl

/-- Every row of the result lies in the block of the point numbered by its row divided by 5000. -/
theorem cover2 (i : S100000x32.Idx) : ∃ t : Fin cfg2.N, (cfg2.win 2).flush t = true ∧ i ∈ ((cfg2.win 2).blk t).view.set := by
  have hN : grid2.N = 20 := Gen.N_2
  have hi0 : (i 0).val < 100000 := (i 0).isLt
  have hi1 : (i 1).val < 32 := (i 1).isLt
  let t : Fin cfg2.N := ⟨(i 0).val / 5000, by show (i 0).val / 5000 < grid2.N; rw [hN]; omega⟩
  obtain ⟨e0, e1, e2, e3, e4, e5⟩ := idx_facts2 t
  have e4' : win2_2.index t (0 : Fin 2) = (i 0).val / 5000 := e4
  refine ⟨t, Gen.flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- After the region the result array is the product of the two arrays as the region found them. -/
theorem final2 (c : Dev nD) :
    (Gen.dat2 (F := Ideal) V c).arrAt 2 cfg2.N = prod2 (V c main_v48) (V c main_arg5) :=
  (Gen.dat2 (F := Ideal) V c).arrAt_eq_of_cover 2 (prod2 (V c main_v48) (V c main_arg5))
    (fun t _ => flushed2_eq V c t) cover2

end Cert.KernelIdeal.RegionValue

end
-- ==== Proof.RefGraph.lean ====
/-
  The reference recomputes the graph structure in each of its three layers: the index vectors with the self-loops, the
  weights with the ones, the degree, its inverse square root where positive, the per-edge normalisation. The second
  and third computations apply the same operations to the same two arguments as the first, so each array of a later
  layer is the first layer's array.
-/
import proofs.«106816_j7524782702918_1_alg».proof.Proof.Gen.ReferenceIdeal.Read

set_option maxRecDepth 16384

noncomputable section

namespace Cert.ReferenceIdeal.Layers

open Cert.ReferenceIdeal Cert.ReferenceIdeal.Read Idealize.ShloMosaic

/-! ## The 2 layer's copy -/

theorem src2_eq (x1 : (⟨S2x1600000, .i32⟩ : BufTy).Contents (Elt Ideal)) : val_main_v53 (F := Ideal) x1 = val_main_v6 x1 := rfl
theorem dst2_eq (x1 : (⟨S2x1600000, .i32⟩ : BufTy).Contents (Elt Ideal)) : val_main_v54 (F := Ideal) x1 = val_main_v7 x1 := rfl
theorem w2_eq (x2 : (⟨S1600000, .f32⟩ : BufTy).Contents (Elt Ideal)) : val_main_v56 (F := Ideal) x2 = val_main_v9 x2 := rfl
theorem deg2_eq (x1 : (⟨S2x1600000, .i32⟩ : BufTy).Contents (Elt Ideal)) (x2 : (⟨S1600000, .f32⟩ : BufTy).Contents (Elt Ideal)) : val_main_v59 (F := Ideal) x1 x2 = val_main_v12 x1 x2 := by
  unfold val_main_v59 val_main_v12
  rw [w2_eq]
  rfl
theorem dinv2_eq (x1 : (⟨S2x1600000, .i32⟩ : BufTy).Contents (Elt Ideal)) (x2 : (⟨S1600000, .f32⟩ : BufTy).Contents (Elt Ideal)) : val_main_v64 (F := Ideal) x1 x2 = val_main_v17 x1 x2 := by
  unfold val_main_v64 val_main_v17 val_main_v61 val_main_v14 val_main_v62 val_main_v15
  rw [deg2_eq]
  rfl
theorem norm2_eq (x1 : (⟨S2x1600000, .i32⟩ : BufTy).Contents (Elt Ideal)) (x2 : (⟨S1600000, .f32⟩ : BufTy).Contents (Elt Ideal)) : val_main_v80 (F := Ideal) x1 x2 = val_main_v33 x1 x2 := by
  unfold val_main_v80 val_main_v33 val_main_v72 val_main_v25 val_main_v79 val_main_v32 val_main_v71 val_main_v24
  rw [dinv2_eq, w2_eq]
  rfl

/-! ## The 3 layer's copy -/

theorem src3_eq (x1 : (⟨S2x1600000, .i32⟩ : BufTy).Contents (Elt Ideal)) : val_main_v100 (F := Ideal) x1 = val_main_v6 x1 := rfl
theorem dst3_eq (x1 : (⟨S2x1600000, .i32⟩ : BufTy).Contents (Elt Ideal)) : val_main_v101 (F := Ideal) x1 = val_main_v7 x1 := rfl
theorem w3_eq (x2 : (⟨S1600000, .f32⟩ : BufTy).Contents (Elt Ideal)) : val_main_v103 (F := Ideal) x2 = val_main_v9 x2 := rfl
theorem deg3_eq (x1 : (⟨S2x1600000, .i32⟩ : BufTy).Contents (Elt Ideal)) (x2 : (⟨S1600000, .f32⟩ : BufTy).Contents (Elt Ideal)) : val_main_v106 (F := Ideal) x1 x2 = val_main_v12 x1 x2 := by
  unfold val_main_v106 val_main_v12
  rw [w3_eq]
  rfl
theorem dinv3_eq (x1 : (⟨S2x1600000, .i32⟩ : BufTy).Contents (Elt Ideal)) (x2 : (⟨S1600000, .f32⟩ : BufTy).Contents (Elt Ideal)) : val_main_v111 (F := Ideal) x1 x2 = val_main_v17 x1 x2 := by
  unfold val_main_v111 val_main_v17 val_main_v108 val_main_v14 val_main_v109 val_main_v15
  rw [deg3_eq]
  rfl
theorem norm3_eq (x1 : (⟨S2x1600000, .i32⟩ : BufTy).Contents (Elt Ideal)) (x2 : (⟨S1600000, .f32⟩ : BufTy).Contents (Elt Ideal)) : val_main_v127 (F := Ideal) x1 x2 = val_main_v33 x1 x2 := by
  unfold val_main_v127 val_main_v33 val_main_v119 val_main_v25 val_main_v126 val_main_v32 val_main_v118 val_main_v24
  rw [dinv3_eq, w3_eq]
  rfl

end Cert.ReferenceIdeal.Layers

end
-- ==== Proof.Layer2.lean ====
/-
  The second layer, stage by stage, in the kernel program and in the reference. The dense projection of the first
  layer's output by the second weight matrix: the region's product is the reference's contraction, entry by entry the
  same sum over the 64 hidden features. The message passing: the graph arrays the kernel computed once are still
  in their buffers, and the reference's second copies of them are its first; the same gather, scaling and
  scatter-add then give equal aggregated arrays. The bias and the rectification close the layer as in the first.
-/
import proofs.«106816_j7524782702918_1_alg».proof.Proof.Gen.KernelIdeal.Frame
import proofs.«106816_j7524782702918_1_alg».proof.Proof.Gen.ReferenceIdeal.Read
import proofs.«106816_j7524782702918_1_alg».proof.Proof.Carry
import proofs.«106816_j7524782702918_1_alg».proof.Proof.Graph
import proofs.«106816_j7524782702918_1_alg».proof.Proof.Layer1
import proofs.«106816_j7524782702918_1_alg».proof.Proof.Matmul2
import proofs.«106816_j7524782702918_1_alg».proof.Proof.BiasRegions
import proofs.«106816_j7524782702918_1_alg».proof.Proof.RefGraph
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Stages

open Cert.KernelIdeal Cert.KernelIdeal.Gen Cert.ReferenceIdeal.Read Cert.ReferenceIdeal.Layers
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- After the third region its result array is the reference's projection of the first layer's output. -/
theorem W7_proj : W7 m ρ c (Proc.devRef .tc main_v49) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  have eX : V6 m ρ c main_v48 = _ := W6_hidden m ρ c
  have eW : V6 m ρ c main_arg5 = _ := W6_arg5 m ρ c
  rw [RegionValue.final2 (V6 m ρ) c, eX, eW]
  funext i
  rw [val_main_v51_apply]
  exact Finset.sum_congr rfl fun k _ => congrArg₂ (· * ·) (congrArg (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (funext fun a => match a with | ⟨0, _⟩ => rfl | ⟨1, _⟩ => rfl)) (congrArg (m ((c : Thread nD τ).loc main_arg5)) (funext fun a => match a with | ⟨0, _⟩ => rfl | ⟨1, _⟩ => rfl))

/-- The graph arrays and the second bias are still there after the third region. -/
theorem W7_src : W7 m ρ c (Proc.devRef .tc main_v5) = val_main_v6 (F := Ideal) (m ((c : Thread nD τ).loc main_arg1)) :=
  (Carry.up7 m ρ c main_v5 (by decide) (by decide) (by decide)).trans (W4_src m ρ c)
theorem W7_dst : W7 m ρ c (Proc.devRef .tc main_v6) = val_main_v7 (F := Ideal) (m ((c : Thread nD τ).loc main_arg1)) :=
  (Carry.up7 m ρ c main_v6 (by decide) (by decide) (by decide)).trans (W4_dst m ρ c)
theorem W7_norm : W7 m ρ c (Proc.devRef .tc main_v32) = val_main_v33 (F := Ideal) (m ((c : Thread nD τ).loc main_arg1)) (m ((c : Thread nD τ).loc main_arg2)) :=
  (Carry.up7 m ρ c main_v32 (by decide) (by decide) (by decide)).trans (W4_norm m ρ c)
theorem W7_arg6 : W7 m ρ c (Proc.devRef .tc main_arg6) = (m ((c : Thread nD τ).loc main_arg6)) :=
  (Carry.up7 m ρ c main_arg6 (by decide) (by decide) (by decide)).trans
    ((Carry.up4 m ρ c main_arg6 (by decide)).trans (Carry.up3 m ρ c main_arg6 (by decide) (by decide) (by decide)))

/-- The second layer's aggregated messages. -/
theorem W8_agg : W8 m ρ c (Proc.devRef .tc main_v62) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W7 m ρ c) (Proc.devRef .tc main_v62) = _
  after_results_simp
  rw [W7_src, W7_dst, W7_norm, W7_proj]
  unfold val_main_v93 val_main_v92 val_main_v90 val_main_v89 val_main_v81 val_main_v88 val_main_v87 val_main_v86 val_main_v83 val_main_v85
  rw [src2_eq, dst2_eq, norm2_eq]
  rfl

/-- The second bias, laid out as one row. -/
theorem W8_bias : W8 m ρ c (Proc.devRef .tc main_v63) = shapeCast S1x32 (m ((c : Thread nD τ).loc main_arg6)) shapeCasts_S32_S1x32 := by
  show StableHlo.after hostOps3 (W7 m ρ c) (Proc.devRef .tc main_v63) = _
  after_results_simp
  rw [W7_arg6]
  rfl

/-- After the fourth region: the second layer's output. -/
theorem W9_hidden : W9 m ρ c (Proc.devRef .tc main_v64) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  have eA : V8 m ρ c main_v62 = _ := W8_agg m ρ c
  have eB : V8 m ρ c main_v63 = _ := W8_bias m ρ c
  rw [RegionValue.final3 (V8 m ρ) c, eA, eB]
  funext i
  rw [val_main_v97_apply, val_main_v96_apply, val_main_v95_apply, val_main_v94_apply, val_main_call3_v0_apply, val_main_call3_cst_apply]
  exact congrArg (fun t => FloatOps.maximumf (FloatOps.addf _ t) _)
    ((shapeCast_a_1a_apply (m ((c : Thread nD τ).loc main_arg6)) shapeCasts_S32_S1x32 (0 : Fin 1) (i 1)).trans (congrArg (m ((c : Thread nD τ).loc main_arg6)) (funext fun a => match a with | ⟨0, _⟩ => rfl)))

/-- The last weight matrix is untouched when the fifth region is entered. -/
theorem W9_arg7 : W9 m ρ c (Proc.devRef .tc main_arg7) = (m ((c : Thread nD τ).loc main_arg7)) :=
  (Carry.up9 m ρ c main_arg7 (by decide) (by decide)).trans ((Carry.up7 m ρ c main_arg7 (by decide) (by decide) (by decide)).trans
    ((Carry.up4 m ρ c main_arg7 (by decide)).trans (Carry.up3 m ρ c main_arg7 (by decide) (by decide) (by decide))))

end Cert.KernelIdeal.Stages

end
-- ==== Proof.Matmul4.lean ====
/-
  The third dense projection, as its pipelined region computes it: the hidden features after the second layer, a
  [100000, 32] array, times the last weight matrix, a single column [32, 1], twenty blocks of 5000 rows. The blocks
  tile the rows, so the result array — one number per node — ends as the product of the two arrays, entry by entry
  the sum over the 32 hidden features.
-/
import proofs.«106816_j7524782702918_1_alg».proof.Proof.Gen.KernelIdeal.Frame
import proofs.«106816_j7524782702918_1_alg».proof.Proof.LibDotRows
import proofs.«106816_j7524782702918_1_alg».proof.Proof.Matmul0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 4: a [100000, 32] array times a [32, 1] array, twenty blocks of 5000 rows -/

/-- The product of the two arrays, entry by entry: row `i 0` of the left against column `i 1` of the right. -/
def prod4 (X : S100000x32.Idx → EReal) (W : S32x1.Idx → EReal) : S100000x1.Idx → EReal :=
  fun i => ∑ k : Fin 32, X (ix2 (i 0) k) * W (ix2 k (i 1))

/-- What one grid point computes from its two loaded blocks, at row `r` and column `q` of the block: a cast to the same shape changes nothing, narrowing to
    bf16 is the identity on extended reals, and the matrix unit's product into a zero accumulator is the sum over the
    contracted axis. -/
theorem pay4_apply (x0 : Vec Ideal S5000x32 .f32) (x1 : Vec Ideal S32x1 .f32) (r : Fin 5000) (q : Fin 1) :
    Gen.k4_pay1 (F := Ideal) x0 x1 (ix2 r q) = ∑ k : Fin 32, x0 (ix2 r k) * x1 (ix2 k q) := by
  unfold Gen.k4_pay1
  rw [shapeCast_self]
  exact matmul_zero_rows dot_S5000x32_S32x1_S5000x1_1_0_0_1_n_n none rfl rfl (fun _ _ => rfl) (fun _ _ => rfl)
    (fun _ _ => rfl) (fun _ _ => rfl) _ _ r q

/-- One block entry against one array entry: if row `j 0` of the left block is row `i 0` of the left array, and
    column `j 1` of the right block is column `i 1` of the right array, the block's entry at `j` is the product's
    entry at `i`. -/
theorem point4 (X : S100000x32.Idx → EReal) (W : S32x1.Idx → EReal) (x0 : Vec Ideal S5000x32 .f32)
    (x1 : Vec Ideal S32x1 .f32) (j : S5000x1.Idx) (i : S100000x1.Idx)
    (h0 : ∀ k : Fin 32, x0 (ix2 (j 0) k) = X (ix2 (i 0) k)) (h1 : ∀ k : Fin 32, x1 (ix2 k (j 1)) = W (ix2 k (i 1))) :
    Gen.k4_pay1 (F := Ideal) x0 x1 j = prod4 X W i :=
  calc Gen.k4_pay1 (F := Ideal) x0 x1 j = Gen.k4_pay1 (F := Ideal) x0 x1 (ix2 (j 0) (j 1)) := congrArg (Gen.k4_pay1 (F := Ideal) x0 x1) (eq_ix2 j)
    _ = ∑ k : Fin 32, x0 (ix2 (j 0) k) * x1 (ix2 k (j 1)) := pay4_apply x0 x1 (j 0) (j 1)
    _ = prod4 X W i := Finset.sum_congr rfl fun k _ => by rw [h0 k, h1 k]

/-- Where the three windows' blocks sit at grid point `t`: the row blocks of the left array and of the result move
    with the point, the right array is one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the region finds them. -/
theorem flushed4_eq (c : Dev nD) (t : Fin cfg4.N) :
    (Gen.dat4 (F := Ideal) V c).flushed 2 t
      = ((cfg4.win 2).blk t).view.read (Elt Ideal) (prod4 (V c main_v64) (V c main_arg7)) := by
  show (cfg4.win 2).cut (grid4.coords t) ((Gen.dat4 (F := Ideal) V c).after 2 t) = _
  rw [Gen.after4_2]
  unfold Gen.out4_2
  rw [View.canon_unit_zero hz]
  simp only [View.ld_unit_zero (S := S5000x32) hz, View.ld_unit_zero (S := S32x1) hz]
  obtain ⟨e0, e1, e2, e3, e4, e5⟩ := idx_facts4 t
  funext j
  refine point4 (V c main_v64) (V c main_arg7) _ _ j (((cfg4.win 2).blk t).view.emb j) (fun k => ?_) (fun k => ?_)
  · show V c main_v64 (((cfg4.win 0).blk t).view.emb (ix2 (j 0) k)) = V c main_v64 (ix2 ((((cfg4.win 2).blk t).view.emb j) 0) k)
    refine congrArg (V c main_v64) ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 32 + 1 * k.val = k.val; omega
  · show V c main_arg7 (((cfg4.win 1).blk t).view.emb (ix2 k (j 1))) = V c main_arg7 (ix2 k ((((cfg4.win 2).blk t).view.emb j) 1))
    refine congrArg (V c main_arg7) ?_
    funext a; apply Fin.ext
    match a with
    | ⟨0, _⟩ => show win4_1.index t (0 : Fin 2) * 32 + 1 * k.val = k.val; omega
    | ⟨1, _⟩ => show win4_1.index t (1 : Fin 2) * 1 + 1 * (j 1).val = win4_2.index t (1 : Fin 2) * 1 + 1 * (j 1).val; omega

/-- An index of the result array is in point `t`'s block iff each coordinate is in the block's range on its axis. -/
theorem mem_blk4 (t : Fin cfg4.N) (i : S100000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v65).slice (win4_2.rect t)).set ↔ _
  rw [View.set_slice_whole, Rect.mem_set_unit]
  exact Iff.rfl

/-- Every row of the result lies in the block of the point numbered by its row divided by 5000. -/
theorem cover4 (i : S100000x1.Idx) : ∃ t : Fin cfg4.N, (cfg4.win 2).flush t = true ∧ i ∈ ((cfg4.win 2).blk t).view.set := by
  have hN : grid4.N = 20 := Gen.N_4
  have hi0 : (i 0).val < 100000 := (i 0).isLt
  have hi1 : (i 1).val < 1 := (i 1).isLt
  let t : Fin cfg4.N := ⟨(i 0).val / 5000, by show (i 0).val / 5000 < grid4.N; rw [hN]; omega⟩
  obtain ⟨e0, e1, e2, e3, e4, e5⟩ := idx_facts4 t
  have e4' : win4_2.index t (0 : Fin 2) = (i 0).val / 5000 := e4
  refine ⟨t, Gen.flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- After the region the result array is the product of the two arrays as the region found them. -/
theorem final4 (c : Dev nD) :
    (Gen.dat4 (F := Ideal) V c).arrAt 2 cfg4.N = prod4 (V c main_v64) (V c main_arg7) :=
  (Gen.dat4 (F := Ideal) V c).arrAt_eq_of_cover 2 (prod4 (V c main_v64) (V c main_arg7))
    (fun t _ => flushed4_eq V c t) cover4

end Cert.KernelIdeal.RegionValue

end
-- ==== Proof.Layer3.lean ====
/-
  The third layer, and the result. The dense projection of the second layer's output by the last weight matrix, a
  single column: the region's product is the reference's contraction, entry by entry the same sum over the 32 hidden
  features. The message passing on one number per node, with the same graph arrays; the last bias, added without
  rectification; and the final reshape from a column of 100000 rows to a vector of 100000 entries. The kernel
  program's result buffer ends holding the reference's result, as whole arrays.
-/
import proofs.«106816_j7524782702918_1_alg».proof.Proof.Gen.KernelIdeal.Frame
import proofs.«106816_j7524782702918_1_alg».proof.Proof.Gen.ReferenceIdeal.Read
import proofs.«106816_j7524782702918_1_alg».proof.Proof.Carry
import proofs.«106816_j7524782702918_1_alg».proof.Proof.Graph
import proofs.«106816_j7524782702918_1_alg».proof.Proof.Layer1
import proofs.«106816_j7524782702918_1_alg».proof.Proof.Layer2
import proofs.«106816_j7524782702918_1_alg».proof.Proof.Matmul4
import proofs.«106816_j7524782702918_1_alg».proof.Proof.BiasRegions
import proofs.«106816_j7524782702918_1_alg».proof.Proof.RefGraph
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Stages

open Cert.KernelIdeal Cert.KernelIdeal.Gen Cert.ReferenceIdeal.Read Cert.ReferenceIdeal.Layers
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- After the fifth region its result array is the reference's projection of the second layer's output. -/
theorem W10_proj : W10 m ρ c (Proc.devRef .tc main_v65) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  have eX : V9 m ρ c main_v64 = _ := W9_hidden m ρ c
  have eW : V9 m ρ c main_arg7 = _ := W9_arg7 m ρ c
  rw [RegionValue.final4 (V9 m ρ) c, eX, eW]
  funext i
  rw [val_main_v98_apply]
  exact Finset.sum_congr rfl fun k _ => congrArg₂ (· * ·) (congrArg (val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (funext fun a => match a with | ⟨0, _⟩ => rfl | ⟨1, _⟩ => rfl)) (congrArg (m ((c : Thread nD τ).loc main_arg7)) (funext fun a => match a with | ⟨0, _⟩ => rfl | ⟨1, _⟩ => rfl))

/-- The graph arrays and the last bias are still there after the fifth region. -/
theorem W10_src : W10 m ρ c (Proc.devRef .tc main_v5) = val_main_v6 (F := Ideal) (m ((c : Thread nD τ).loc main_arg1)) :=
  (Carry.up10 m ρ c main_v5 (by decide) (by decide) (by decide)).trans (W7_src m ρ c)
theorem W10_dst : W10 m ρ c (Proc.devRef .tc main_v6) = val_main_v7 (F := Ideal) (m ((c : Thread nD τ).loc main_arg1)) :=
  (Carry.up10 m ρ c main_v6 (by decide) (by decide) (by decide)).trans (W7_dst m ρ c)
theorem W10_norm : W10 m ρ c (Proc.devRef .tc main_v32) = val_main_v33 (F := Ideal) (m ((c : Thread nD τ).loc main_arg1)) (m ((c : Thread nD τ).loc main_arg2)) :=
  (Carry.up10 m ρ c main_v32 (by decide) (by decide) (by decide)).trans (W7_norm m ρ c)
theorem W10_arg8 : W10 m ρ c (Proc.devRef .tc main_arg8) = (m ((c : Thread nD τ).loc main_arg8)) :=
  (Carry.up10 m ρ c main_arg8 (by decide) (by decide) (by decide)).trans ((Carry.up7 m ρ c main_arg8 (by decide) (by decide) (by decide)).trans
    ((Carry.up4 m ρ c main_arg8 (by decide)).trans (Carry.up3 m ρ c main_arg8 (by decide) (by decide) (by decide))))

/-- The third layer's aggregated messages. -/
theorem W11_agg : W11 m ρ c (Proc.devRef .tc main_v77) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v77) = _
  after_results_simp
  rw [W10_src, W10_dst, W10_norm, W10_proj]
  unfold val_main_v139 val_main_v138 val_main_v136 val_main_v128 val_main_v135 val_main_v134 val_main_v133 val_main_v130 val_main_v132
  rw [src3_eq, dst3_eq, norm3_eq]
  rfl

/-- The last bias, laid out as one row of one entry. -/
theorem W11_bias : W11 m ρ c (Proc.devRef .tc main_v78) = shapeCast S1x1 (m ((c : Thread nD τ).loc main_arg8)) shapeCasts_S1_S1x1 := by
  show StableHlo.after hostOps5 (W10 m ρ c) (Proc.devRef .tc main_v78) = _
  after_results_simp
  rw [W10_arg8]
  rfl

/-- After the sixth region: the third layer's output, one number per node, as a column. -/
theorem W12_out : W12 m ρ c (Proc.devRef .tc main_v79) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ?_
  have eA : V11 m ρ c main_v77 = _ := W11_agg m ρ c
  have eB : V11 m ρ c main_v78 = _ := W11_bias m ρ c
  rw [RegionValue.final5 (V11 m ρ) c, eA, eB]
  funext i
  rw [val_main_v142_apply, val_main_v141_apply, val_main_v140_apply]
  exact congrArg (fun t => FloatOps.addf _ t)
    ((shapeCast_a_1a_apply (m ((c : Thread nD τ).loc main_arg8)) shapeCasts_S1_S1x1 (0 : Fin 1) (i 1)).trans (congrArg (m ((c : Thread nD τ).loc main_arg8)) (funext fun a => match a with | ⟨0, _⟩ => Fin.ext (by have h : (i 1).val < 1 := (i 1).isLt; show (i 1).val = 0; omega))))

/-- After the last stretch the result buffer holds the reference's result. -/
theorem W13_result : W13 m ρ c (Proc.devRef .tc main_v80) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W12 m ρ c) (Proc.devRef .tc main_v80) = _
  after_results_simp
  rw [W12_out]
  rfl

end Cert.KernelIdeal.Stages

end
-- ==== Proof.lean ====
/- A three-layer graph convolutional network on 100000 nodes and 1600000 weighted edges, each layer
   D^(-1/2) (A + I) D^(-1/2) (h W) + b with a rectification after the first two, computed two ways. The kernel program
   computes the graph normalisation once, and runs each layer's dense projection and each layer's bias (and
   rectification) as pipelined regions over twenty blocks of 5000 nodes, the gathers and scatter-adds of the message
   passing staying host operations between them; the reference is host operations throughout and recomputes the
   normalisation in every layer. On extended reals the two are one function of the nine arguments:
   * a region's block products tile the rows, so its result array is the whole product, entry by entry the sum
     over the contracted axis that the reference's contraction is (narrowing the factors to bf16 changes nothing on
     extended reals); a bias region's result is, entry by entry, the aggregated value plus the bias of its column,
     rectified where the layer rectifies;
   * everything between the regions is the same host operations applied to equal arrays, so equal whole arrays;
   * the reference's second and third copies of the graph arrays are its first.
   No law of arithmetic that needs finite values is used, so the precondition is never opened. The three frames are
   the generated ones (the reference's is its generated run with the result dropped); nothing was rewritten by the
   idealisation, so there is nothing to preserve. -/
import proofs.«106816_j7524782702918_1_alg».proof.Defs
import proofs.«106816_j7524782702918_1_alg».proof.Proof.Gen.Kernel
import proofs.«106816_j7524782702918_1_alg».proof.Proof.Gen.Kernel.Skeleton
import proofs.«106816_j7524782702918_1_alg».proof.Proof.Gen.Kernel.Launch
import proofs.«106816_j7524782702918_1_alg».proof.Proof.Gen.Kernel.Points
import proofs.«106816_j7524782702918_1_alg».proof.Proof.Gen.Kernel.Frame
import proofs.«106816_j7524782702918_1_alg».proof.Proof.Gen.KernelIdeal
import proofs.«106816_j7524782702918_1_alg».proof.Proof.Gen.KernelIdeal.Skeleton
import proofs.«106816_j7524782702918_1_alg».proof.Proof.Gen.KernelIdeal.Launch
import proofs.«106816_j7524782702918_1_alg».proof.Proof.Gen.KernelIdeal.Points
import proofs.«106816_j7524782702918_1_alg».proof.Proof.Gen.KernelIdeal.Frame
import proofs.«106816_j7524782702918_1_alg».proof.Proof.Gen.ReferenceIdeal
import proofs.«106816_j7524782702918_1_alg».proof.Proof.Gen.Pre_finite_inputs
import proofs.«106816_j7524782702918_1_alg».proof.Proof.Gen.ReferenceIdeal.Run
import proofs.«106816_j7524782702918_1_alg».proof.Proof.Gen.ReferenceIdeal.Read
import proofs.«106816_j7524782702918_1_alg».proof.Proof.KernelRun
import proofs.«106816_j7524782702918_1_alg».proof.Proof.Layer3
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs run, and both results are the reference's function
    of the kernel's arguments: the kernel program's by the stage-by-stage reading of its segments, the reference's by
    its run and the agreement of the arguments. -/
theorem algebraic : Cert.algebraic_KernelIdeal_ReferenceIdeal := by
  intro m ρ m' ρ' _ hagree
  refine ⟨fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.RunAll.run_all (F := Ideal) m ρ)
    exact ⟨(h c _ (Cert.KernelIdeal.Gen.mem_uc Cert.KernelIdeal.main_v80 (by decide))).trans (Cert.KernelIdeal.Stages.W13_result m ρ c),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c),
      (h c _ (Cert.KernelIdeal.Gen.mem_uc Cert.KernelIdeal.main_arg8 (by decide))).trans (Cert.KernelIdeal.Gen.W13_main_arg8 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v143_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
